-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S2x256x1x8 : S_.BroadcastsInDim S2x256x1x8 (![] : Fin 0 → Fin S2x256x1x8.rank)
  reducesTo_S2x256x1x8_S_d0_1_2_3 : S2x256x1x8.ReducesTo [0, 1, 2, 3] S_
  bcast_S_S4096x1x1x1 : S_.BroadcastsInDim S4096x1x1x1 (![] : Fin 0 → Fin S4096x1x1x1.rank)
  reducesTo_S4096x1x1x1_S_d0_1_2_3 : S4096x1x1x1.ReducesTo [0, 1, 2, 3] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg5 : FVec F S16x4096 .f32) (main_arg6 : FVec F S4096x16 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S16x4096 .f32 := Host.absf main_arg5
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg6
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  main_v28

def fn {F : FTy → Type} [FloatOps F] (main_arg0 : FVec F S4x2048x4096 .f32) (main_arg1 : IVec S4096x512x2 32) (main_arg2 : FVec F S2x256x1x8 .f32) (main_arg3 : FVec F S4096x1x1x1 .f32) (main_arg4 : FVec F S4096 .f32) (main_arg5 : FVec F S16x4096 .f32) (main_arg6 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2x256x1x8 .f32 := Host.absf main_arg2
  let main_cst_0 : FVec F S_ .f32 := constant S_ .f32 0x7F800000#32
  let main_v5 : FVec F S2x256x1x8 .f32 := broadcastInDim S2x256x1x8 ![] bcast_S_S2x256x1x8 main_cst_0
  let main_v6 : IVec S2x256x1x8 1 := cmpf .olt main_v4 main_v5
  let main_c_1 : IVec S_ 1 := constantI S_ 1 1#1
  let main_v7 : IVec S_ 1 := (fun x v => Host.reduce IntOp.andi x v reducesTo_S2x256x1x8_S_d0_1_2_3 h_S_) main_v6 main_c_1
  let main_v8 : IVec S_ 1 := andi main_v3 main_v7
  let main_v9 : FVec F S4096x1x1x1 .f32 := Host.absf main_arg3
  let main_cst_2 : FVec F S_ .f32 := constant S_ .f32 0x7F800000#32
  let main_v10 : FVec F S4096x1x1x1 .f32 := broadcastInDim S4096x1x1x1 ![] bcast_S_S4096x1x1x1 main_cst_2
  let main_v11 : IVec S4096x1x1x1 1 := cmpf .olt main_v9 main_v10
  let main_c_3 : IVec S_ 1 := constantI S_ 1 1#1
  let main_v12 : IVec S_ 1 := (fun x v => Host.reduce IntOp.andi x v reducesTo_S4096x1x1x1_S_d0_1_2_3 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_v13 main_v16
-- ==== Kernel.lean ====
abbrev S4x2048x4096 : Shape := ⟨3, ![4, 2048, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S16x4096 : Shape := ⟨2, ![16, 4096]⟩
abbrev S4096x16 : Shape := ⟨2, ![4096, 16]⟩
abbrev S1x256x1x8 : Shape := ⟨4, ![1, 256, 1, 8]⟩
abbrev S256x1x8 : Shape := ⟨3, ![256, 1, 8]⟩
abbrev S4096x512x1 : Shape := ⟨3, ![4096, 512, 1]⟩
abbrev S4096x512 : Shape := ⟨2, ![4096, 512]⟩
abbrev S_ : Shape := ⟨0, ![]⟩
abbrev S1 : Shape := ⟨1, ![1]⟩
abbrev S1x1x1 : Shape := ⟨3, ![1, 1, 1]⟩
abbrev S4096x512x1x8 : Shape := ⟨4, ![4096, 512, 1, 8]⟩
abbrev S512x8x4096x1 : Shape := ⟨4, ![512, 8, 4096, 1]⟩
abbrev S4096x4096 : Shape := ⟨2, ![4096, 4096]⟩
abbrev S8192x4096 : Shape := ⟨2, ![8192, 4096]⟩
abbrev S1x4096 : Shape := ⟨2, ![1, 4096]⟩
abbrev S8192x16 : Shape := ⟨2, ![8192, 16]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 78
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x512x2, .i32⟩
  | .hbm, ⟨2, _⟩ => ⟨S2x256x1x8, .f32⟩
  | .hbm, ⟨3, _⟩ => ⟨S4096x1x1x1, .f32⟩
  | .hbm, ⟨4, _⟩ => ⟨S4096, .f32⟩
  | .hbm, ⟨5, _⟩ => ⟨S16x4096, .f32⟩
  | .hbm, ⟨6, _⟩ => ⟨S4096x16, .f32⟩
  | .hbm, ⟨7, _⟩ => ⟨S1x256x1x8, .f32⟩
  | .hbm, ⟨8, _⟩ => ⟨S256x1x8, .f32⟩
  | .hbm, ⟨9, _⟩ => ⟨S4096x512x1, .i32⟩
  | .hbm, ⟨10, _⟩ => ⟨S4096x512, .i32⟩
  | .hbm, ⟨11, _⟩ => ⟨S_, .i32⟩
  | .hbm, ⟨12, _⟩ => ⟨S4096x512, .i32⟩
  | .hbm, ⟨13, _⟩ => ⟨S4096x512, .i1⟩
  | .hbm, ⟨14, _⟩ => ⟨S_, .i32⟩
  | .hbm, ⟨15, _⟩ => ⟨S4096x512, .i32⟩
  | .hbm, ⟨16, _⟩ => ⟨S4096x512, .i32⟩
  | .hbm, ⟨17, _⟩ => ⟨S4096x512, .i32⟩
  | .hbm, ⟨18, _⟩ => ⟨S4096x512x1, .i32⟩
  | .hbm, ⟨19, _⟩ => ⟨S1, .i32⟩
  | .hbm, ⟨20, _⟩ => ⟨S_, .i32⟩
  | .hbm, ⟨21, _⟩ => ⟨S4096x512x1, .i32⟩
  | .hbm, ⟨22, _⟩ => ⟨S4096x512x1, .i1⟩
  | .hbm, ⟨23, _⟩ => ⟨S1x1x1, .i32⟩
  | .hbm, ⟨24, _⟩ => ⟨S4096x512x1, .i32⟩
  | .hbm, ⟨25, _⟩ => ⟨S4096x512x1, .i1⟩
  | .hbm, ⟨26, _⟩ => ⟨S4096x512x1, .i1⟩
  | .hbm, ⟨27, _⟩ => ⟨S_, .i1⟩
  | .hbm, ⟨28, _⟩ => ⟨S4096x512, .i1⟩
  | .hbm, ⟨29, _⟩ => ⟨S4096x512x1x8, .f32⟩
  | .hbm, ⟨30, _⟩ => ⟨S4096x512x1x8, .i1⟩
  | .hbm, ⟨31, _⟩ => ⟨S_, .f32⟩
  | .hbm, ⟨32, _⟩ => ⟨S4096x512x1x8, .f32⟩
  | .hbm, ⟨33, _⟩ => ⟨S4096x512x1x8, .f32⟩
  | .hbm, ⟨34, _⟩ => ⟨S1x256x1x8, .f32⟩
  | .hbm, ⟨35, _⟩ => ⟨S256x1x8, .f32⟩
  | .hbm, ⟨36, _⟩ => ⟨S4096x512x1, .i32⟩
  | .hbm, ⟨37, _⟩ => ⟨S4096x512, .i32⟩
  | .hbm, ⟨38, _⟩ => ⟨S_, .i32⟩
  | .hbm, ⟨39, _⟩ => ⟨S4096x512, .i32⟩
  | .hbm, ⟨40, _⟩ => ⟨S4096x512, .i1⟩
  | .hbm, ⟨41, _⟩ => ⟨S_, .i32⟩
  | .hbm, ⟨42, _⟩ => ⟨S4096x512, .i32⟩
  | .hbm, ⟨43, _⟩ => ⟨S4096x512, .i32⟩
  | .hbm, ⟨44, _⟩ => ⟨S4096x512, .i32⟩
  | .hbm, ⟨45, _⟩ => ⟨S4096x512x1, .i32⟩
  | .hbm, ⟨46, _⟩ => ⟨S1, .i32⟩
  | .hbm, ⟨47, _⟩ => ⟨S_, .i32⟩
  | .hbm, ⟨48, _⟩ => ⟨S4096x512x1, .i32⟩
  | .hbm, ⟨49, _⟩ => ⟨S4096x512x1, .i1⟩
  | .hbm, ⟨50, _⟩ => ⟨S1x1x1, .i32⟩
  | .hbm, ⟨51, _⟩ => ⟨S4096x512x1, .i32⟩
  | .hbm, ⟨52, _⟩ => ⟨S4096x512x1, .i1⟩
  | .hbm, ⟨53, _⟩ => ⟨S4096x512x1, .i1⟩
  | .hbm, ⟨54, _⟩ => ⟨S_, .i1⟩
  | .hbm, ⟨55, _⟩ => ⟨S4096x512, .i1⟩
  | .hbm, ⟨56, _⟩ => ⟨S4096x512x1x8, .f32⟩
  | .hbm, ⟨57, _⟩ => ⟨S4096x512x1x8, .i1⟩
  | .hbm, ⟨58, _⟩ => ⟨S_, .f32⟩
  | .hbm, ⟨59, _⟩ => ⟨S4096x512x1x8, .f32⟩
  | .hbm, ⟨60, _⟩ => ⟨S4096x512x1x8, .f32⟩
  | .hbm, ⟨61, _⟩ => ⟨S4096x512x1x8, .f32⟩
  | .hbm, ⟨62, _⟩ => ⟨S4096x512x1x8, .f32⟩
  | .hbm, ⟨63, _⟩ => ⟨S4096x512x1x8, .f32⟩
  | .hbm, ⟨64, _⟩ => ⟨S512x8x4096x1, .f32⟩
  | .hbm, ⟨65, _⟩ => ⟨S4096x4096, .f32⟩
  | .hbm, ⟨66, _⟩ => ⟨S4096x4096, .bf16⟩
  | .hbm, ⟨67, _⟩ => ⟨S8192x4096, .f32⟩
  | .hbm, ⟨68, _⟩ => ⟨S8192x4096, .bf16⟩
  | .hbm, ⟨69, _⟩ => ⟨S4096x16, .f32⟩
  | .hbm, ⟨70, _⟩ => ⟨S4096x16, .bf16⟩
  | .hbm, ⟨71, _⟩ => ⟨S16x4096, .f32⟩
  | .hbm, ⟨72, _⟩ => ⟨S16x4096, .bf16⟩
  | .hbm, ⟨73, _⟩ => ⟨S1x4096, .f32⟩
  | .hbm, ⟨74, _⟩ => ⟨S8192x16, .f32⟩
  | .hbm, ⟨75, _⟩ => ⟨S8192x16, .bf16⟩
  | .hbm, ⟨76, _⟩ => ⟨S8192x4096, .f32⟩
  | .hbm, ⟨77, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S16x1024, .bf16⟩
  | .local _ .vmem, ⟨7, _⟩ => ⟨S16x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  slices_S2x256x1x8_S1x256x1x8_0_0_0_0 : S2x256x1x8.Slices ![0, 0, 0, 0] S1x256x1x8
  shapeCasts_S1x256x1x8_S256x1x8 : S1x256x1x8.ShapeCasts S256x1x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x1 : S_.BroadcastsInDim S4096x512x1 (![] : Fin 0 → Fin S4096x512x1.rank)
  bcast_S1_S1x1x1_2 : S1.BroadcastsInDim S1x1x1 (![2] : Fin 1 → Fin S1x1x1.rank)
  bcast_S1x1x1_S4096x512x1_0_1_2 : S1x1x1.BroadcastsInDim S4096x512x1 (![0, 1, 2] : Fin 3 → Fin S4096x512x1.rank)
  reducesTo_S4096x512x1_S4096x512_d2 : S4096x512x1.ReducesTo [2] S4096x512
  h_S_ : 0 < S_.numel
  bcast_S4096x512_S4096x512x1x8_0_1 : S4096x512.BroadcastsInDim S4096x512x1x8 (![0, 1] : Fin 2 → Fin S4096x512x1x8.rank)
  bcast_S_S4096x512x1x8 : S_.BroadcastsInDim S4096x512x1x8 (![] : Fin 0 → Fin S4096x512x1x8.rank)
  slices_S2x256x1x8_S1x256x1x8_1_0_0_0 : S2x256x1x8.Slices ![1, 0, 0, 0] S1x256x1x8
  slices_S4096x512x2_S4096x512x1_0_0_1 : S4096x512x2.Slices ![0, 0, 1] S4096x512x1
  bcast_S4096x1x1x1_S4096x512x1x8_0_1_2_3 : S4096x1x1x1.BroadcastsInDim S4096x512x1x8 (![0, 1, 2, 3] : Fin 4 → Fin S4096x512x1x8.rank)
  transposes_S4096x512x1x8_S512x8x4096x1_1_3_0_2 : S4096x512x1x8.Transposes [1, 3, 0, 2] S512x8x4096x1
  shapeCasts_S512x8x4096x1_S4096x4096 : S512x8x4096x1.ShapeCasts S4096x4096
  bitsLt_bf16_f32 : FTy.bits .bf16 < FTy.bits .f32
  shapeCasts_S4x2048x4096_S8192x4096 : S4x2048x4096.ShapeCasts S8192x4096
  transposes_S16x4096_S4096x16_1_0 : S16x4096.Transposes [1, 0] S4096x16
  transposes_S4096x16_S16x4096_1_0 : S4096x16.Transposes [1, 0] S16x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S256x1x8_S4096x512x1_S4096x512x1x8_23_0_n_n_0_2_118_wf : GatherDims.WF S256x1x8 S4096x512x1 S4096x512x1x8 [2, 3] [0] [] [0] [] 2 ![1, 1, 8]
  dot_S8192x4096_S4096x16_S8192x16_1_0_0_1_n_n_wf : DotDims.WF S8192x4096 S4096x16 S8192x16 [1] [0] [0] [1] [] []
  dot_S1024x1024_S1024x1024_S1024x1024_1_0_0_1_n_n_wf : DotDims.WF S1024x1024 S1024x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .bf16 = 32 ∨ (Rect.block (s := S8192x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def gather_S256x1x8_S4096x512x1_S4096x512x1x8_23_0_n_n_0_2_118 : GatherDims S256x1x8 S4096x512x1 S4096x512x1x8 where
  offsetDims := [2, 3]
  collapsedSliceDims := [0]
  operandBatchingDims := []
  startIndicesBatchingDims := []
  startIndexMap := [0]
  indexVectorDim := 2
  sliceSizes := ![1, 1, 8]
  wf := gather_S256x1x8_S4096x512x1_S4096x512x1x8_23_0_n_n_0_2_118_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v17) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S16x4096 : Shape := ⟨2, ![16, 4096]⟩
abbrev S4096x16 : Shape := ⟨2, ![4096, 16]⟩
abbrev S1x256x1x8 : Shape := ⟨4, ![1, 256, 1, 8]⟩
abbrev S256x1x8 : Shape := ⟨3, ![256, 1, 8]⟩
abbrev S4096x512x1 : Shape := ⟨3, ![4096, 512, 1]⟩
abbrev S4096x512 : Shape := ⟨2, ![4096, 512]⟩
abbrev S_ : Shape := ⟨0, ![]⟩
abbrev S1 : Shape := ⟨1, ![1]⟩
abbrev S1x1x1 : Shape := ⟨3, ![1, 1, 1]⟩
abbrev S4096x512x1x8 : Shape := ⟨4, ![4096, 512, 1, 8]⟩
abbrev S4096x1x512x8 : Shape := ⟨4, ![4096, 1, 512, 8]⟩
abbrev S4096x4096 : Shape := ⟨2, ![4096, 4096]⟩
abbrev S1x1x4096 : Shape := ⟨3, ![1, 1, 4096]⟩
abbrev S4x2048x16 : Shape := ⟨3, ![4, 2048, 16]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512x2, .i32⟩
  | .hbm, ⟨2, _⟩ => ⟨S2x256x1x8, .f32⟩
  | .hbm, ⟨3, _⟩ => ⟨S4096x1x1x1, .f32⟩
  | .hbm, ⟨4, _⟩ => ⟨S4096, .f32⟩
  | .hbm, ⟨5, _⟩ => ⟨S16x4096, .f32⟩
  | .hbm, ⟨6, _⟩ => ⟨S4096x16, .f32⟩
  | .hbm, ⟨7, _⟩ => ⟨S1x256x1x8, .f32⟩
  | .hbm, ⟨8, _⟩ => ⟨S256x1x8, .f32⟩
  | .hbm, ⟨9, _⟩ => ⟨S4096x512x1, .i32⟩
  | .hbm, ⟨10, _⟩ => ⟨S4096x512, .i32⟩
  | .hbm, ⟨11, _⟩ => ⟨S_, .i32⟩
  | .hbm, ⟨12, _⟩ => ⟨S4096x512, .i32⟩
  | .hbm, ⟨13, _⟩ => ⟨S4096x512, .i1⟩
  | .hbm, ⟨14, _⟩ => ⟨S_, .i32⟩
  | .hbm, ⟨15, _⟩ => ⟨S4096x512, .i32⟩
  | .hbm, ⟨16, _⟩ => ⟨S4096x512, .i32⟩
  | .hbm, ⟨17, _⟩ => ⟨S4096x512, .i32⟩
  | .hbm, ⟨18, _⟩ => ⟨S4096x512x1, .i32⟩
  | .hbm, ⟨19, _⟩ => ⟨S1, .i32⟩
  | .hbm, ⟨20, _⟩ => ⟨S_, .i32⟩
  | .hbm, ⟨21, _⟩ => ⟨S4096x512x1, .i32⟩
  | .hbm, ⟨22, _⟩ => ⟨S4096x512x1, .i1⟩
  | .hbm, ⟨23, _⟩ => ⟨S1x1x1, .i32⟩
  | .hbm, ⟨24, _⟩ => ⟨S4096x512x1, .i32⟩
  | .hbm, ⟨25, _⟩ => ⟨S4096x512x1, .i1⟩
  | .hbm, ⟨26, _⟩ => ⟨S4096x512x1, .i1⟩
  | .hbm, ⟨27, _⟩ => ⟨S_, .i1⟩
  | .hbm, ⟨28, _⟩ => ⟨S4096x512, .i1⟩
  | .hbm, ⟨29, _⟩ => ⟨S4096x512x1x8, .f32⟩
  | .hbm, ⟨30, _⟩ => ⟨S4096x512x1x8, .i1⟩
  | .hbm, ⟨31, _⟩ => ⟨S_, .f32⟩
  | .hbm, ⟨32, _⟩ => ⟨S4096x512x1x8, .f32⟩
  | .hbm, ⟨33, _⟩ => ⟨S4096x512x1x8, .f32⟩
  | .hbm, ⟨34, _⟩ => ⟨S1x256x1x8, .f32⟩
  | .hbm, ⟨35, _⟩ => ⟨S256x1x8, .f32⟩
  | .hbm, ⟨36, _⟩ => ⟨S4096x512x1, .i32⟩
  | .hbm, ⟨37, _⟩ => ⟨S4096x512, .i32⟩
  | .hbm, ⟨38, _⟩ => ⟨S_, .i32⟩
  | .hbm, ⟨39, _⟩ => ⟨S4096x512, .i32⟩
  | .hbm, ⟨40, _⟩ => ⟨S4096x512, .i1⟩
  | .hbm, ⟨41, _⟩ => ⟨S_, .i32⟩
  | .hbm, ⟨42, _⟩ => ⟨S4096x512, .i32⟩
  | .hbm, ⟨43, _⟩ => ⟨S4096x512, .i32⟩
  | .hbm, ⟨44, _⟩ => ⟨S4096x512, .i32⟩
  | .hbm, ⟨45, _⟩ => ⟨S4096x512x1, .i32⟩
  | .hbm, ⟨46, _⟩ => ⟨S1, .i32⟩
  | .hbm, ⟨47, _⟩ => ⟨S_, .i32⟩
  | .hbm, ⟨48, _⟩ => ⟨S4096x512x1, .i32⟩
  | .hbm, ⟨49, _⟩ => ⟨S4096x512x1, .i1⟩
  | .hbm, ⟨50, _⟩ => ⟨S1x1x1, .i32⟩
  | .hbm, ⟨51, _⟩ => ⟨S4096x512x1, .i32⟩
  | .hbm, ⟨52, _⟩ => ⟨S4096x512x1, .i1⟩
  | .hbm, ⟨53, _⟩ => ⟨S4096x512x1, .i1⟩
  | .hbm, ⟨54, _⟩ => ⟨S_, .i1⟩
  | .hbm, ⟨55, _⟩ => ⟨S4096x512, .i1⟩
  | .hbm, ⟨56, _⟩ => ⟨S4096x512x1x8, .f32⟩
  | .hbm, ⟨57, _⟩ => ⟨S4096x512x1x8, .i1⟩
  | .hbm, ⟨58, _⟩ => ⟨S_, .f32⟩
  | .hbm, ⟨59, _⟩ => ⟨S4096x512x1x8, .f32⟩
  | .hbm, ⟨60, _⟩ => ⟨S4096x512x1x8, .f32⟩
  | .hbm, ⟨61, _⟩ => ⟨S4096x512x1x8, .f32⟩
  | .hbm, ⟨62, _⟩ => ⟨S4096x512x1x8, .f32⟩
  | .hbm, ⟨63, _⟩ => ⟨S4096x512x1x8, .f32⟩
  | .hbm, ⟨64, _⟩ => ⟨S4096x1x512x8, .f32⟩
  | .hbm, ⟨65, _⟩ => ⟨S4096x4096, .f32⟩
  | .hbm, ⟨66, _⟩ => ⟨S4x2048x4096, .f32⟩
  | .hbm, ⟨67, _⟩ => ⟨S1x1x4096, .f32⟩
  | .hbm, ⟨68, _⟩ => ⟨S4x2048x4096, .f32⟩
  | .hbm, ⟨69, _⟩ => ⟨S4x2048x4096, .f32⟩
  | .hbm, ⟨70, _⟩ => ⟨S4x2048x16, .f32⟩
  | .hbm, ⟨71, _⟩ => ⟨S4x2048x4096, .f32⟩
  | .hbm, ⟨72, _⟩ => ⟨S_, .f32⟩
  | .hbm, ⟨73, _⟩ => ⟨S4x2048x4096, .f32⟩
  | .hbm, ⟨74, _⟩ => ⟨S4x2048x4096, .f32⟩
  | .hbm, ⟨75, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩

abbrev nD : Nat := 1
abbrev τ : Topo := Topo.v7x

variable {F : FTy → Type} [FloatOps F]

class Facts₀ : Prop where
  slices_S2x256x1x8_S1x256x1x8_0_0_0_0 : S2x256x1x8.Slices ![0, 0, 0, 0] S1x256x1x8
  shapeCasts_S1x256x1x8_S256x1x8 : S1x256x1x8.ShapeCasts S256x1x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x1 : S_.BroadcastsInDim S4096x512x1 (![] : Fin 0 → Fin S4096x512x1.rank)
  bcast_S1_S1x1x1_2 : S1.BroadcastsInDim S1x1x1 (![2] : Fin 1 → Fin S1x1x1.rank)
  bcast_S1x1x1_S4096x512x1_0_1_2 : S1x1x1.BroadcastsInDim S4096x512x1 (![0, 1, 2] : Fin 3 → Fin S4096x512x1.rank)
  reducesTo_S4096x512x1_S4096x512_d2 : S4096x512x1.ReducesTo [2] S4096x512
  h_S_ : 0 < S_.numel
  bcast_S4096x512_S4096x512x1x8_0_1 : S4096x512.BroadcastsInDim S4096x512x1x8 (![0, 1] : Fin 2 → Fin S4096x512x1x8.rank)
  bcast_S_S4096x512x1x8 : S_.BroadcastsInDim S4096x512x1x8 (![] : Fin 0 → Fin S4096x512x1x8.rank)
  slices_S2x256x1x8_S1x256x1x8_1_0_0_0 : S2x256x1x8.Slices ![1, 0, 0, 0] S1x256x1x8
  slices_S4096x512x2_S4096x512x1_0_0_1 : S4096x512x2.Slices ![0, 0, 1] S4096x512x1
  bcast_S4096x1x1x1_S4096x512x1x8_0_1_2_3 : S4096x1x1x1.BroadcastsInDim S4096x512x1x8 (![0, 1, 2, 3] : Fin 4 → Fin S4096x512x1x8.rank)
  transposes_S4096x512x1x8_S4096x1x512x8_0_2_1_3 : S4096x512x1x8.Transposes [0, 2, 1, 3] S4096x1x512x8
  shapeCasts_S4096x1x512x8_S4096x4096 : S4096x1x512x8.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  gather_S256x1x8_S4096x512x1_S4096x512x1x8_23_0_n_n_0_2_118_wf : GatherDims.WF S256x1x8 S4096x512x1 S4096x512x1x8 [2, 3] [0] [] [0] [] 2 ![1, 1, 8]
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def gather_S256x1x8_S4096x512x1_S4096x512x1x8_23_0_n_n_0_2_118 : GatherDims S256x1x8 S4096x512x1 S4096x512x1x8 where
  offsetDims := [2, 3]
  collapsedSliceDims := [0]
  operandBatchingDims := []
  startIndicesBatchingDims := []
  startIndexMap := [0]
  indexVectorDim := 2
  sliceSizes := ![1, 1, 8]
  wf := gather_S256x1x8_S4096x512x1_S4096x512x1x8_23_0_n_n_0_2_118_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.LibCoveredLoad.lean ====
/-
  A load of a whole buffer after several stores, the last of which overwrote the whole buffer.

  The library reads a whole-buffer load after ONE whole-buffer store as that store's payload
  (`View.readCov_unit_zero`). An accumulator that is rewritten whole several times in one body and
  read back in between needs the same fact after a list of stores: only the last store matters,
  because it covers every index.
-/
import Idealize.ShloMosaic.Lib.Pipeline.Value

noncomputable section

namespace Cert.LibCoveredLoad

open Idealize.ShloMosaic Idealize.ShloMosaic.View

variable {Val : EltTy → Type} {S : Shape} {e : EltTy}

/-- A load through the whole-shape rectangle at zero offsets, after a list of stores (last first) whose
    last one went through that same rectangle, reads that last store's payload, whatever the earlier
    stores were: the last store covers every index. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons.mpr (Or.inl rfl), mem_set_unit_zero rfl inb y⟩),
    canon_cons_unit_zero rfl, ld_unit_zero rfl]

end Cert.LibCoveredLoad

end
-- ==== Proof.KernelPieces.lean ====
/-
  What one grid point's body leaves behind, case by case, as values.

  The body keeps a running [1024, 1024] accumulator in a scratch buffer that lives across grid points.  At the first
  point of a run along the contraction axis it overwrites the accumulator with zeros; at every point it replaces the
  accumulator by accumulator + (left block · right block); at the last point of the run it also stores, into the output
  block, accumulator + bias row + 2 · (projection block · correction block), reading the accumulator it has just
  written.  Each store covers its whole buffer, so what a buffer holds afterwards is the payload of the last store into
  it, and a load that follows a covering store reads that store's payload.
-/
import proofs.«149406_j5781025980674_2_alg».proof.Proof.Gen.KernelIdeal.Frame
import proofs.«149406_j5781025980674_2_alg».proof.Proof.LibCoveredLoad

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-- A point in the middle of a run: the accumulator xs0 becomes xs0 + x0 · x1. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x1024 .bf16) (x1 : Vec F S1024x1024 .bf16) (x2 : Vec F S1024x16 .bf16) (x3 : Vec F S16x1024 .bf16) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B; dsimp only; sl_unfold_words
  rw [View.canon_unit_zero hz]
  simp only [View.readAt_eq_ld, harg9.read_unread, harg3.read_unread, harg4.read_unread, View.ld_unit_zero (S := S1024x1024) hz]

/-- The first point of a run: the accumulator is reset to zeros and becomes 0 + x0 · x1. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x1024 .bf16) (x1 : Vec F S1024x1024 .bf16) (x2 : Vec F S1024x16 .bf16) (x3 : Vec F S16x1024 .bf16) (x4 : Vec F S1x1024 .f32) :
    sout0_A_0 c i arg3 harg3 arg4 harg4 arg5 harg5 arg6 harg6 arg7 harg7 arg8 harg8 arg9 harg9 hc0 hc1 x0 x1 x2 x3 x4 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A; dsimp only; sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- The last point of a run: the accumulator is updated as in the middle of the run. -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x1024 .bf16) (x1 : Vec F S1024x1024 .bf16) (x2 : Vec F S1024x16 .bf16) (x3 : Vec F S16x1024 .bf16) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 xs0 x0 x1 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C; dsimp only; sl_unfold_words
  rw [View.canon_unit_zero hz]
  simp only [View.readAt_eq_ld, harg9.read_unread, harg3.read_unread, harg4.read_unread, View.ld_unit_zero (S := S1024x1024) hz]

/-- The last point of a run: the output block is the epilogue of the updated accumulator, the projection block x2,
    the correction block x3 and the bias row x4. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x1024 .bf16) (x1 : Vec F S1024x1024 .bf16) (x2 : Vec F S1024x16 .bf16) (x3 : Vec F S16x1024 .bf16) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 x2 x3 (k0_pay2 xs0 x0 x1) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C; dsimp only; sl_unfold_words
  rw [View.canon_unit_zero hz, View.readCov_unit_zero (S := S1024x1024) _ hz]
  simp only [View.readAt_eq_ld, harg9.read_unread, harg3.read_unread, harg4.read_unread, harg5.read_unread, harg6.read_unread,
    harg7.read_unread, View.ld_unit_zero (S := S1024x1024) hz, View.ld_unit_zero (S := S1024x16) hz,
    View.ld_unit_zero (S := S16x1024) hz, View.ld_unit_zero (S := S1x1024) hz]

end Cert.KernelIdeal.Pieces

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.Spec.lean ====
/-
  The function both programs compute, entry by entry, on the extended reals.

  An input row x[b, s, ·] of 4096 features is mapped to 4096 outputs by an additively quantized weight matrix plus a bias
  plus a rank-16 correction.  The dequantized weights are kept in their natural layout w4[o, g, 0, e]: output feature o,
  group g of eight consecutive input features, position e inside the group; input feature l sits in group l / 8 at
  position l % 8.  Output entry (b, s, o) is

      (∑ l, x[b, s, l] · w4[o, l / 8, 0, l % 8]  +  bias[o])  +  2 · ∑ r, (∑ l, x[b, s, l] · A[r, l]) · B[o, r].

  Both programs bracket the three summands this way and multiply in this order, so the two sides meet at this term
  with no use of distributivity or cancellation; only the regrouping of the long sum into consecutive blocks and the
  neutrality of zero are needed on the kernel's side, and both hold on the extended reals.
-/
import Idealize.ShloMosaic.PureOps.Ideal
import Idealize.ShloMosaic.Lib.ValueIdx

noncomputable section

open scoped BigOperators

namespace Cert.Spec

open Idealize.ShloMosaic Idealize.ShloMosaic.ValueIdx

/-- The group of eight input features that feature l belongs to. -/
def grp (l : Fin 4096) : Fin 512 := ⟨l.val / 8, by have := l.isLt; omega⟩

/-- The position of input feature l inside its group. -/
def pos (l : Fin 4096) : Fin 8 := ⟨l.val % 8, by omega⟩

/-- The scaling of the low-rank correction: the number two, as the float word both programs carry. -/
def two : EReal := Ideal.ofBits .f32 0x40000000#32

/-- The dequantized weight joining output feature o and input feature l. -/
def wAt (w4 : (⟨4, ![4096, 512, 1, 8]⟩ : Shape).Idx → EReal) (o l : Fin 4096) : EReal :=
  w4 (ix4 o (grp l) (0 : Fin 1) (pos l))

/-- The low-rank projection of row (b, s) onto direction r. -/
def xaAt (x : (⟨3, ![4, 2048, 4096]⟩ : Shape).Idx → EReal) (A : (⟨2, ![16, 4096]⟩ : Shape).Idx → EReal)
    (b : Fin 4) (s : Fin 2048) (r : Fin 16) : EReal :=
  ∑ l : Fin 4096, x (ix3 b s l) * A (ix2 r l)

/-- Output entry (b, s, o). -/
def outAt (x : (⟨3, ![4, 2048, 4096]⟩ : Shape).Idx → EReal) (w4 : (⟨4, ![4096, 512, 1, 8]⟩ : Shape).Idx → EReal)
    (bias : (⟨1, ![4096]⟩ : Shape).Idx → EReal) (A : (⟨2, ![16, 4096]⟩ : Shape).Idx → EReal)
    (B : (⟨2, ![4096, 16]⟩ : Shape).Idx → EReal) (b : Fin 4) (s : Fin 2048) (o : Fin 4096) : EReal :=
  ((∑ l : Fin 4096, x (ix3 b s l) * wAt w4 o l) + bias (ix1 o))
    + two * ∑ r : Fin 16, xaAt x A b s r * B (ix2 o r)

/-- The whole output array. -/
def out (x : (⟨3, ![4, 2048, 4096]⟩ : Shape).Idx → EReal) (w4 : (⟨4, ![4096, 512, 1, 8]⟩ : Shape).Idx → EReal)
    (bias : (⟨1, ![4096]⟩ : Shape).Idx → EReal) (A : (⟨2, ![16, 4096]⟩ : Shape).Idx → EReal)
    (B : (⟨2, ![4096, 16]⟩ : Shape).Idx → EReal) : (⟨3, ![4, 2048, 4096]⟩ : Shape).Idx → EReal :=
  fun i => outAt x w4 bias A B (i 0) (i 1) (i 2)

end Cert.Spec

end
-- ==== Proof.KernelPayload.lean ====
/-
  The body's three stored values read at one entry, on the extended reals.

  * the reset value is zero at every entry;
  * the accumulator update at (p, q) adds, to the accumulator's entry, the inner product of row p of the left block with
    column q of the right block;
  * the epilogue at (p, q) is (accumulator + bias row at q) + 2 · (inner product of row p of the projection block with
    column q of the correction block).
  The blocks are stored in a narrower float format; on the extended reals that changes nothing.
-/
import proofs.«149406_j5781025980674_2_alg».proof.Proof.Gen.KernelIdeal.Skeleton
import proofs.«149406_j5781025980674_2_alg».proof.Proof.LibPlainDot
import proofs.«149406_j5781025980674_2_alg».proof.Proof.Spec
import Idealize.ShloMosaic.Lib.ValueLayout
import Idealize.ShloMosaic.Lib.Pipeline.Value

noncomputable section

open scoped BigOperators

namespace Cert.KernelIdeal.Payload

open Idealize.ShloMosaic Idealize.ShloMosaic.ValueIdx Cert.KernelIdeal Cert.KernelIdeal.Gen

/-- The reset value: zero everywhere. -/
theorem pay1_apply (j : S1024x1024.Idx) : k0_pay1 (F := Ideal) j = 0 := by
  unfold k0_pay1
  rw [shapeCast_self]
  exact Ideal.ofBits_zero_f32

/-- The accumulator update at entry (p, q). -/
theorem pay2_apply (acc : FVec Ideal S1024x1024 .f32) (a b : FVec Ideal S1024x1024 .bf16) (p q : Fin 1024) :
    k0_pay2 (F := Ideal) acc a b (ix2 p q) = acc (ix2 p q) + ∑ j : Fin 1024, a (ix2 p j) * b (ix2 j q) := by
  unfold k0_pay2
  simp only [shapeCast_self]
  refine congrArg (acc (ix2 p q) + ·) ?_
  exact Cert.LibPlainDot.matmul_zero_apply dot_S1024x1024_S1024x1024_S1024x1024_1_0_0_1_n_n rfl rfl rfl rfl rfl rfl none a b p q

/-- The epilogue at entry (p, q). -/
theorem pay3_apply (xa : FVec Ideal S1024x16 .bf16) (bt : FVec Ideal S16x1024 .bf16) (acc : FVec Ideal S1024x1024 .f32)
    (bias : FVec Ideal S1x1024 .f32) (p q : Fin 1024) :
    k0_pay3 (F := Ideal) xa bt acc bias (ix2 p q)
      = (acc (ix2 p q) + bias (ix2 (0 : Fin 1) q)) + Cert.Spec.two * ∑ r : Fin 16, xa (ix2 p r) * bt (ix2 r q) := by
  unfold k0_pay3
  simp only [shapeCast_self]
  refine congrArg₂ (· + ·) (congrArg (acc (ix2 p q) + ·) ?_) (congrArg (Cert.Spec.two * ·) ?_)
  · exact broadcastTo_1b_ab_apply bias broadcasts_S1x1024_S1024x1024 p q
  · exact Cert.LibPlainDot.matmul_zero_apply dot_S1024x16_S16x1024_S1024x1024_1_0_0_1_n_n rfl rfl rfl rfl rfl rfl none xa bt p q

end Cert.KernelIdeal.Payload

end
-- ==== Proof.KernelGrid.lean ====
/-
  The block indices of the six windows over the grid, in closed form.

  The 128 grid points are numbered t = 16·i + 4·j + k with i < 8 the row-block of the output, j < 4 its column-block and
  k < 4 the step along the contraction axis: i = t / 16, j = t / 4 % 4, k = t % 4.  Each window's block index at point
  t is a pair of these numbers or zero; the six facts are checked point by point over the finite grid.
-/
import proofs.«149406_j5781025980674_2_alg».proof.Proof.Gen.KernelIdeal.Launch

-- one fact at a time: each is a check over every grid point
set_option Elab.async false

noncomputable section

namespace Cert.KernelIdeal.Grid

open Idealize.ShloMosaic Cert.KernelIdeal Cert.KernelIdeal.Gen

theorem idx0 : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idx1 : ∀ t : Fin cfg0.N, win0_1.index t (0 : Fin 2) = t.val % 4 ∧ win0_1.index t (1 : Fin 2) = t.val / 4 % 4 :=
  (by decide +kernel : ∀ t : Fin grid0.N, win0_1.index t (0 : Fin 2) = t.val % 4 ∧ win0_1.index t (1 : Fin 2) = t.val / 4 % 4)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx3 : ∀ t : Fin cfg0.N, win0_3.index t (0 : Fin 2) = 0 ∧ win0_3.index t (1 : Fin 2) = t.val / 4 % 4 :=
  (by decide +kernel : ∀ t : Fin grid0.N, win0_3.index t (0 : Fin 2) = 0 ∧ win0_3.index t (1 : Fin 2) = t.val / 4 % 4)
theorem idx4 : ∀ t : Fin cfg0.N, win0_4.index t (0 : Fin 2) = 0 ∧ win0_4.index t (1 : Fin 2) = t.val / 4 % 4 :=
  (by decide +kernel : ∀ t : Fin grid0.N, win0_4.index t (0 : Fin 2) = 0 ∧ win0_4.index t (1 : Fin 2) = t.val / 4 % 4)
theorem idx5 : ∀ t : Fin cfg0.N, win0_5.index t (0 : Fin 2) = t.val / 16 ∧ win0_5.index t (1 : Fin 2) = t.val / 4 % 4 :=
  (by decide +kernel : ∀ t : Fin grid0.N, win0_5.index t (0 : Fin 2) = t.val / 16 ∧ win0_5.index t (1 : Fin 2) = t.val / 4 % 4)

end Cert.KernelIdeal.Grid

end
-- ==== Proof.LibNatRead.lean ====
/-
  A matrix read at a pair of natural numbers.

  When a large matrix is cut into blocks, the row and column of an entry of a block are sums "block offset + position
  inside the block".  Reading the matrix at natural numbers, each reduced modulo its extent, makes such a reading a
  total function of the two numbers: positions can then be compared by arithmetic alone, with no bound carried inside
  the term.  At numbers below the extents the reading is the matrix entry itself.
-/
import Idealize.ShloMosaic.Lib.ValueIdx

noncomputable section

namespace Cert.LibNatRead

open Idealize.ShloMosaic Idealize.ShloMosaic.ValueIdx

variable {α : Type}

/-- The entry of an [a, b] matrix at row r mod a and column l mod b. -/
def rd2 {a b : ℕ} (ha : 0 < a) (hb : 0 < b) (X : (⟨2, ![a, b]⟩ : Shape).Idx → α) (r l : ℕ) : α :=
  X (ix2 (⟨r % a, Nat.mod_lt _ ha⟩ : Fin a) (⟨l % b, Nat.mod_lt _ hb⟩ : Fin b))

/-- The entry at an index is the reading at the index's two coordinates. -/
theorem rd2_eq {a b : ℕ} (ha : 0 < a) (hb : 0 < b) (X : (⟨2, ![a, b]⟩ : Shape).Idx → α) (i : (⟨2, ![a, b]⟩ : Shape).Idx)
    (r l : ℕ) (h0 : (i 0).val = r) (h1 : (i 1).val = l) : X i = rd2 ha hb X r l := by
  unfold rd2
  refine congrArg X (funext fun ax => Fin.ext ?_)
  match ax with
  | ⟨0, _⟩ =>
    show (i 0).val = r % a
    rw [← h0]; exact (Nat.mod_eq_of_lt (idx2_lt0 i)).symm
  | ⟨1, _⟩ =>
    show (i 1).val = l % b
    rw [← h1]; exact (Nat.mod_eq_of_lt (idx2_lt1 i)).symm

/-- At a row and a column below the extents the reading is the entry. -/
theorem rd2_ix2 {a b : ℕ} (ha : 0 < a) (hb : 0 < b) (X : (⟨2, ![a, b]⟩ : Shape).Idx → α) (r : Fin a) (l : Fin b) :
    rd2 ha hb X r.val l.val = X (ix2 r l) :=
  (rd2_eq ha hb X (ix2 r l) r.val l.val rfl rfl).symm

end Cert.LibNatRead

end
-- ==== Proof.KernelBlocks.lean ====
/-
  The blocks the body is handed at each grid point, read off the arrays the region finds on entry.

  At point t = 16·i + 4·j + k the body sees
    * rows 1024·i …, columns 1024·k … of the [8192, 4096] input matrix (the left block),
    * rows 1024·k …, columns 1024·j … of the [4096, 4096] weight matrix (the right block),
    * rows 1024·i … of the [8192, 16] projection, all 16 columns,
    * all 16 rows of the [16, 4096] correction, columns 1024·j …,
    * the one row of the [1, 4096] bias, columns 1024·j ….
  An entry of a block sits in its array at block index × block size + its position inside the block, on each axis.
-/
import proofs.«149406_j5781025980674_2_alg».proof.Proof.Gen.KernelIdeal.Frame
import proofs.«149406_j5781025980674_2_alg».proof.Proof.KernelGrid
import proofs.«149406_j5781025980674_2_alg».proof.Proof.LibNatRead

set_option maxRecDepth 16384
-- one reading at a time: each unfolds a window's view
set_option Elab.async false

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Grid Cert.LibNatRead

variable (m : (ℓ : Loc nD τ sig) → Buf (Elt Ideal) ℓ)

/-- The left block: rows 1024·(t/16) + p, columns 1024·(t%4) + j of the input matrix. -/
theorem blk0 (c : Dev nD) (t : Fin cfg0.N) (p j : Fin 1024) :
    (iblk m c 0 t : FVec Ideal S1024x1024 .bf16) (ix2 p j)
      = rd2 (a := 8192) (b := 4096) (by decide) (by decide) (V m c (Pipeline.arrRef spec0 0) : S8192x4096.Idx → EReal) (1024 * (t.val / 16) + p.val) (1024 * (t.val % 4) + j.val) := by
  unfold iblk
  generalize V m c (Pipeline.arrRef spec0 0) = A
  rw [View.read_apply]
  refine (cast_eq _ _).trans ?_
  refine rd2_eq (a := 8192) (b := 4096) (by decide) (by decide) (A : S8192x4096.Idx → EReal) (((cfg0.win 0).blk t).view.emb (ix2 p j)) (1024 * (t.val / 16) + p.val) (1024 * (t.val % 4) + j.val) ?_ ?_
  · show win0_0.index t 0 * 1024 + 1 * p.val = _
    rw [(idx0 t).1]; omega
  · show win0_0.index t 1 * 1024 + 1 * j.val = _
    rw [(idx0 t).2]; omega

/-- The right block: rows 1024·(t%4) + j, columns 1024·(t/4%4) + q of the weight matrix. -/
theorem blk1 (c : Dev nD) (t : Fin cfg0.N) (j q : Fin 1024) :
    (iblk m c 1 t : FVec Ideal S1024x1024 .bf16) (ix2 j q)
      = rd2 (a := 4096) (b := 4096) (by decide) (by decide) (V m c (Pipeline.arrRef spec0 1) : S4096x4096.Idx → EReal) (1024 * (t.val % 4) + j.val) (1024 * (t.val / 4 % 4) + q.val) := by
  unfold iblk
  generalize V m c (Pipeline.arrRef spec0 1) = A
  rw [View.read_apply]
  refine (cast_eq _ _).trans ?_
  refine rd2_eq (a := 4096) (b := 4096) (by decide) (by decide) (A : S4096x4096.Idx → EReal) (((cfg0.win 1).blk t).view.emb (ix2 j q)) (1024 * (t.val % 4) + j.val) (1024 * (t.val / 4 % 4) + q.val) ?_ ?_
  · show win0_1.index t 0 * 1024 + 1 * j.val = _
    rw [(idx1 t).1]; omega
  · show win0_1.index t 1 * 1024 + 1 * q.val = _
    rw [(idx1 t).2]; omega

/-- The projection block: rows 1024·(t/16) + p, column r. -/
theorem blk2 (c : Dev nD) (t : Fin cfg0.N) (p : Fin 1024) (r : Fin 16) :
    (iblk m c 2 t : FVec Ideal S1024x16 .bf16) (ix2 p r)
      = rd2 (a := 8192) (b := 16) (by decide) (by decide) (V m c (Pipeline.arrRef spec0 2) : S8192x16.Idx → EReal) (1024 * (t.val / 16) + p.val) (r.val) := by
  unfold iblk
  generalize V m c (Pipeline.arrRef spec0 2) = A
  rw [View.read_apply]
  refine (cast_eq _ _).trans ?_
  refine rd2_eq (a := 8192) (b := 16) (by decide) (by decide) (A : S8192x16.Idx → EReal) (((cfg0.win 2).blk t).view.emb (ix2 p r)) (1024 * (t.val / 16) + p.val) (r.val) ?_ ?_
  · show win0_2.index t 0 * 1024 + 1 * p.val = _
    rw [(idx2 t).1]; omega
  · show win0_2.index t 1 * 16 + 1 * r.val = _
    rw [(idx2 t).2]; omega

/-- The correction block: row r, columns 1024·(t/4%4) + q. -/
theorem blk3 (c : Dev nD) (t : Fin cfg0.N) (r : Fin 16) (q : Fin 1024) :
    (iblk m c 3 t : FVec Ideal S16x1024 .bf16) (ix2 r q)
      = rd2 (a := 16) (b := 4096) (by decide) (by decide) (V m c (Pipeline.arrRef spec0 3) : S16x4096.Idx → EReal) (r.val) (1024 * (t.val / 4 % 4) + q.val) := by
  unfold iblk
  generalize V m c (Pipeline.arrRef spec0 3) = A
  rw [View.read_apply]
  refine (cast_eq _ _).trans ?_
  refine rd2_eq (a := 16) (b := 4096) (by decide) (by decide) (A : S16x4096.Idx → EReal) (((cfg0.win 3).blk t).view.emb (ix2 r q)) (r.val) (1024 * (t.val / 4 % 4) + q.val) ?_ ?_
  · show win0_3.index t 0 * 16 + 1 * r.val = _
    rw [(idx3 t).1]; omega
  · show win0_3.index t 1 * 1024 + 1 * q.val = _
    rw [(idx3 t).2]; omega

/-- The bias block: the one row, columns 1024·(t/4%4) + q. -/
theorem blk4 (c : Dev nD) (t : Fin cfg0.N) (q : Fin 1024) :
    (iblk m c 4 t : FVec Ideal S1x1024 .f32) (ix2 (0 : Fin 1) q)
      = rd2 (a := 1) (b := 4096) (by decide) (by decide) (V m c (Pipeline.arrRef spec0 4) : S1x4096.Idx → EReal) (0) (1024 * (t.val / 4 % 4) + q.val) := by
  unfold iblk
  generalize V m c (Pipeline.arrRef spec0 4) = A
  rw [View.read_apply]
  refine (cast_eq _ _).trans ?_
  refine rd2_eq (a := 1) (b := 4096) (by decide) (by decide) (A : S1x4096.Idx → EReal) (((cfg0.win 4).blk t).view.emb (ix2 (0 : Fin 1) q)) (0) (1024 * (t.val / 4 % 4) + q.val) ?_ ?_
  · show win0_4.index t 0 * 1 + 1 * (0 : Fin 1).val = _
    rw [(idx4 t).1]; omega
  · show win0_4.index t 1 * 1024 + 1 * q.val = _
    rw [(idx4 t).2]; omega

end Cert.KernelIdeal.Blocks

end
-- ==== Proof.LibBlockSum.lean ====
/-
  Regrouping a finite sum into consecutive blocks.

  A sum over the `N = m * n` indices `0, …, N - 1` is the sum, over the `m` blocks `j = 0, …, m - 1`, of the sums
  over the `n` consecutive indices `n * j, …, n * j + n - 1` of block `j`.  It holds in every additive commutative
  monoid — in particular over the extended reals, where a sum may be regrouped and reordered freely although
  cancellation and distributivity fail at the infinities.  The block index ranges over `Finset.range m` so that a
  running partial sum over the first `k + 1` blocks is `Finset.sum_range_succ` away from the one over the first `k`;
  the position inside `Fin N` is written modulo `N` so that the summand is a total function of the natural number `j`.
-/
import Mathlib

open scoped BigOperators

namespace Cert.LibBlockSum

/-- The sum over `Fin N`, `N = m * n`, block by block: block `j` holds the indices `n * j + k`, `k < n`. -/
theorem sum_range_blocks {M : Type*} [AddCommMonoid M] (m n N : ℕ) (hN : N = m * n) (hpos : 0 < N) (f : Fin N → M) :
    ∑ j ∈ Finset.range m, ∑ k : Fin n, f ⟨(n * j + k.val) % N, Nat.mod_lt _ hpos⟩ = ∑ i : Fin N, f i := by
  subst hN
  rw [Finset.sum_range, ← Fintype.sum_prod_type']
  refine Fintype.sum_equiv finProdFinEquiv _ _ (fun p => ?_)
  have hlt : p.2.val + n * p.1.val < m * n := by
    have := (finProdFinEquiv p).isLt
    rwa [finProdFinEquiv_apply_val] at this
  refine congrArg f (Fin.ext ?_)
  show (n * p.1.val + p.2.val) % (m * n) = (finProdFinEquiv p).val
  rw [finProdFinEquiv_apply_val, Nat.mod_eq_of_lt (by omega)]
  omega

end Cert.LibBlockSum
-- ==== Proof.KernelAccum.lean ====
/-
  The accumulator over a run of four grid points, and the block written at the run's last point.

  Along the contraction axis the body resets its accumulator at step 0 and adds one block product at each of the steps
  0, 1, 2, 3.  After step k the accumulator's entry (p, q) is therefore 0 plus the sum, over the steps s ≤ k, of the
  inner products of row p of step s's left block with column q of step s's right block.  Read off the whole arrays, the
  four left blocks are the four consecutive 1024-column slabs of one row of the input matrix and the four right blocks the
  four consecutive 1024-row slabs of one column of the weight matrix, so after step 3 the accumulator holds the full
  inner product over all 4096 input features: a sum over 4096 indices regrouped into four consecutive blocks of 1024,
  which is valid in any commutative monoid and so on the extended reals.  The block written back at step 3 adds the
  bias and twice the rank-16 correction.
-/
import proofs.«149406_j5781025980674_2_alg».proof.Proof.KernelPieces
import proofs.«149406_j5781025980674_2_alg».proof.Proof.KernelPayload
import proofs.«149406_j5781025980674_2_alg».proof.Proof.KernelBlocks
import proofs.«149406_j5781025980674_2_alg».proof.Proof.LibBlockSum
import Idealize.ShloMosaic.Lib.Pipeline.Value

set_option maxRecDepth 16384

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.KernelIdeal.Blocks Cert.LibNatRead
open Idealize.ShloMosaic.Pipeline (Dat)

variable (m : (ℓ : Loc nD τ sig) → Buf (Elt Ideal) ℓ)

/-- From an equation of a pair with a pair of named components: the first component. -/
theorem fst_of_eq {α β : Type} {x : α × β} {a : α} {b : β} (h : x = (a, b)) : x.1 = a := by rw [h]

/-- From an equation of a pair with a pair of named components: the second component. -/
theorem snd_of_eq {α β : Type} {x : α × β} {a : α} {b : β} (h : x = (a, b)) : x.2 = b := by rw [h]

/-- At the first point of a run the accumulator is left at the reset value updated once. -/
theorem acc_reset (c : Dev nD) (t : Fin cfg0.N) (h0 : t.val % 4 = 0) :
    (outsAt0 m c t.val t.isLt).2 = k0_pay2 (F := Ideal) (k0_pay1 (F := Ideal)) (iblk m c 0 t) (iblk m c 1 t) := by
  have h1 : ¬t.val % 4 = 3 := by omega
  exact (snd_of_eq (outsAt0_A m c t h0 h1)).trans
    (Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t))

/-- At every later point of a run the accumulator is what the point before left, updated once. -/
theorem acc_step (c : Dev nD) (t : Fin cfg0.N) (h0 : ¬t.val % 4 = 0) :
    (outsAt0 m c t.val t.isLt).2
      = k0_pay2 (F := Ideal) (outsAt0 m c (t.val - 1) (Nat.lt_of_le_of_lt (Nat.sub_le _ _) t.isLt)).2 (iblk m c 0 t) (iblk m c 1 t) := by
  by_cases h1 : t.val % 4 = 3
  · exact (snd_of_eq (outsAt0_C m c t h0 h1)).trans
      (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2)
  · exact (snd_of_eq (outsAt0_B m c t h0 h1)).trans
      (Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2)

/-- At the last point of a run the output block is the epilogue of the accumulator as that point leaves it. -/
theorem out_last (c : Dev nD) (t : Fin cfg0.N) (h1 : t.val % 4 = 3) :
    (outsAt0 m c t.val t.isLt).1
      = k0_pay3 (F := Ideal) (iblk m c 2 t) (iblk m c 3 t) (outsAt0 m c t.val t.isLt).2 (iblk m c 4 t) := by
  have h0 : ¬t.val % 4 = 0 := by omega
  refine ((fst_of_eq (outsAt0_C m c t h0 h1)).trans
    (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2)).trans ?_
  exact congrArg (fun a => k0_pay3 (F := Ideal) (iblk m c 2 t) (iblk m c 3 t) a (iblk m c 4 t)) (acc_step m c t h0).symm

/-! ## The arrays read at natural numbers -/

/-- The input matrix, the weight matrix, the projection, the correction and the bias row, each as the region finds it,
    read at a row and a column given as natural numbers. -/
abbrev rX (c : Dev nD) (r l : ℕ) : EReal := rd2 (a := 8192) (b := 4096) (by decide) (by decide) (V m c (Pipeline.arrRef spec0 0) : S8192x4096.Idx → EReal) r l
abbrev rW (c : Dev nD) (r l : ℕ) : EReal := rd2 (a := 4096) (b := 4096) (by decide) (by decide) (V m c (Pipeline.arrRef spec0 1) : S4096x4096.Idx → EReal) r l
abbrev rXA (c : Dev nD) (r l : ℕ) : EReal := rd2 (a := 8192) (b := 16) (by decide) (by decide) (V m c (Pipeline.arrRef spec0 2) : S8192x16.Idx → EReal) r l
abbrev rBt (c : Dev nD) (r l : ℕ) : EReal := rd2 (a := 16) (b := 4096) (by decide) (by decide) (V m c (Pipeline.arrRef spec0 3) : S16x4096.Idx → EReal) r l
abbrev rB2 (c : Dev nD) (r l : ℕ) : EReal := rd2 (a := 1) (b := 4096) (by decide) (by decide) (V m c (Pipeline.arrRef spec0 4) : S1x4096.Idx → EReal) r l

/-! ## One step's inner product, and the fold over a run -/

/-- The inner product that the step at point n adds at entry (p, q) of the accumulator, read off the whole arrays. -/
def stepAt (c : Dev nD) (n : ℕ) (p q : Fin 1024) : EReal :=
  ∑ j : Fin 1024, rX m c (1024 * (n / 16) + p.val) (1024 * (n % 4) + j.val) * rW m c (1024 * (n % 4) + j.val) (1024 * (n / 4 % 4) + q.val)

/-- The same as a function of the accumulator's index. -/
def stepSum (c : Dev nD) (n : ℕ) : S1024x1024.Idx → EReal := fun i => stepAt m c n (i 0) (i 1)

/-- One update of an accumulator at point n adds that point's inner product at every entry. -/
theorem step_apply (c : Dev nD) (n : ℕ) (h : n < cfg0.N) (acc : FVec Ideal S1024x1024 .f32) (i : S1024x1024.Idx) :
    k0_pay2 (F := Ideal) acc (iblk m c 0 ⟨n, h⟩) (iblk m c 1 ⟨n, h⟩) i = acc i + stepSum m c n i := by
  obtain ⟨p, q, rfl⟩ : ∃ (p q : Fin 1024), i = ix2 p q := ⟨i 0, i 1, eq_ix2 i⟩
  refine (Payload.pay2_apply acc (iblk m c 0 ⟨n, h⟩) (iblk m c 1 ⟨n, h⟩) p q).trans ?_
  show acc (ix2 p q) + _ = acc (ix2 p q) + stepAt m c n p q
  unfold stepAt
  refine congrArg (acc (ix2 p q) + ·) (Finset.sum_congr rfl fun j _ => ?_)
  exact congrArg₂ (· * ·) (blk0 m c ⟨n, h⟩ p j) (blk1 m c ⟨n, h⟩ j q)

/-- After the point t the accumulator holds zero plus the inner products of the steps of t's run up to t. -/
theorem acc_fold (c : Dev nD) (t : Fin cfg0.N) (i : S1024x1024.Idx) :
    (outsAt0 m c t.val t.isLt).2 i = 0 + ∑ s ∈ Finset.range (t.val % 4 + 1), stepSum m c (4 * (t.val / 4) + s) i := by
  have hN : cfg0.N = 128 := N_0
  have ht : t.val < 128 := hN ▸ t.isLt
  have h' : 4 * (t.val / 4) + t.val % 4 < cfg0.N := by omega
  have e1 := Pipeline.eq_accAt_of_mod (N := cfg0.N) (fun n h => (outsAt0 m c n h).2) 4
      (fun n h => k0_pay2 (F := Ideal) (k0_pay1 (F := Ideal)) (iblk m c 0 ⟨n, h⟩) (iblk m c 1 ⟨n, h⟩))
      (fun n h acc => k0_pay2 (F := Ideal) acc (iblk m c 0 ⟨n, h⟩) (iblk m c 1 ⟨n, h⟩))
      (fun n h e => acc_reset m c ⟨n, h⟩ e)
      (fun n h e => acc_step m c ⟨n + 1, h⟩ e)
      (by decide) t.val t.isLt h'
  refine (congrFun e1 i).trans ?_
  exact Pipeline.accAt_add_apply (N := cfg0.N) _ _ (fun _ => (0 : EReal)) (stepSum m c) (4 * (t.val / 4)) 3
    (fun h i => (step_apply m c _ h _ i).trans (congrArg (· + stepSum m c (4 * (t.val / 4)) i) (Payload.pay1_apply i)))
    (fun n h acc i _ _ => step_apply m c n h acc i)
    (t.val % 4) (by omega) h' i

/-- The four steps of a run together: the inner product over all 4096 input features. -/
theorem full_sum (c : Dev nD) (t : Fin cfg0.N) (p q : Fin 1024) :
    ∑ s ∈ Finset.range 4, stepAt m c (4 * (t.val / 4) + s) p q
      = ∑ l : Fin 4096, rX m c (1024 * (t.val / 16) + p.val) l.val * rW m c l.val (1024 * (t.val / 4 % 4) + q.val) := by
  rw [← Cert.LibBlockSum.sum_range_blocks 4 1024 4096 rfl (by decide)
    (fun l : Fin 4096 => rX m c (1024 * (t.val / 16) + p.val) l.val * rW m c l.val (1024 * (t.val / 4 % 4) + q.val))]
  refine Finset.sum_congr rfl fun s hs => ?_
  have hs4 : s < 4 := Finset.mem_range.mp hs
  refine Finset.sum_congr rfl fun j _ => ?_
  have hj : j.val < 1024 := j.isLt
  have e1 : (4 * (t.val / 4) + s) / 16 = t.val / 16 := by omega
  have e2 : (4 * (t.val / 4) + s) % 4 = s := by omega
  have e3 : (4 * (t.val / 4) + s) / 4 % 4 = t.val / 4 % 4 := by omega
  have e4 : (1024 * s + j.val) % 4096 = 1024 * s + j.val := Nat.mod_eq_of_lt (by omega)
  show rX m c (1024 * ((4 * (t.val / 4) + s) / 16) + p.val) (1024 * ((4 * (t.val / 4) + s) % 4) + j.val)
        * rW m c (1024 * ((4 * (t.val / 4) + s) % 4) + j.val) (1024 * ((4 * (t.val / 4) + s) / 4 % 4) + q.val)
      = rX m c (1024 * (t.val / 16) + p.val) ((1024 * s + j.val) % 4096) * rW m c ((1024 * s + j.val) % 4096) (1024 * (t.val / 4 % 4) + q.val)
  rw [e1, e2, e3, e4]

/-! ## The written block -/

/-- Output entry (R, O) of the [8192, 4096] result, in terms of the five arrays the region reads. -/
def kOutN (c : Dev nD) (R O : ℕ) : EReal :=
  ((∑ l : Fin 4096, rX m c R l.val * rW m c l.val O) + rB2 m c 0 O) + Cert.Spec.two * ∑ r : Fin 16, rXA m c R r.val * rBt m c r.val O

/-- The result array the region leaves. -/
def kOut (c : Dev nD) : S8192x4096.Idx → EReal := fun i => kOutN m c (i 0).val (i 1).val

/-- At the last point of a run the output block's entry (p, q) is the result's entry at the block's offsets plus (p, q). -/
theorem out_block (c : Dev nD) (t : Fin cfg0.N) (h3 : t.val % 4 = 3) (p q : Fin 1024) :
    (outsAt0 m c t.val t.isLt).1 (ix2 p q) = kOutN m c (1024 * (t.val / 16) + p.val) (1024 * (t.val / 4 % 4) + q.val) := by
  rw [out_last m c t h3]
  refine (Payload.pay3_apply (iblk m c 2 t) (iblk m c 3 t) (outsAt0 m c t.val t.isLt).2 (iblk m c 4 t) p q).trans ?_
  unfold kOutN
  refine congrArg₂ (· + ·) (congrArg₂ (· + ·) ?_ (blk4 m c t q))
    (congrArg (Cert.Spec.two * ·) (Finset.sum_congr rfl fun r _ => congrArg₂ (· * ·) (blk2 m c t p r) (blk3 m c t r q)))
  rw [acc_fold m c t (ix2 p q), h3, zero_add]
  exact full_sum m c t p q

end Cert.KernelIdeal.Accum

end
-- ==== Proof.LibBatchBlocks.lean ====
/-
  Layout operations and reductions of rank-3 blocks [a, b, c] read at explicit coordinates: what a kernel meets when it
  treats a block of a batches of b rows as one matrix of a·b rows and takes statistics over the batch axis.

  * merging the two leading axes by a shape cast, [a, b, c] → [a·b, c], and splitting them again: row i·b + r of the
    matrix is row r of batch i;
  * one row [1, 1, c], and one matrix [1, b, c], broadcast over the leading axes;
  * at the ideal values, a sum over the batch axis (axis 0) and over the lane axis (axis 2) as sums over that axis's
    coordinates;
  * at the ideal values, a plain matrix product into a zero accumulator as the sum over the contraction coordinate, for
    any dimension numbers that contract the left operand's columns with the right operand's rows;
  * the small casts [a, 1] → [a] and [a] → [1, 1, a].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibBatchBlocks

open Idealize.ShloMosaic Idealize.ShloMosaic.ValueIdx

variable {α : Type}

/-- An [a, b, c] array cast to [n, c] (n = a·b) reads, at row p = i·b + r and column k, the operand at (i, r, k). -/
theorem shapeCast_merge01_apply {a b c n : ℕ} (x : (⟨3, ![a, b, c]⟩ : Shape).Idx → α)
    (h : (⟨3, ![a, b, c]⟩ : Shape).ShapeCasts ⟨2, ![n, c]⟩) (p : Fin n) (i : Fin a) (r : Fin b) (k : Fin c)
    (hp : p.val = i.val * b + r.val) : shapeCast ⟨2, ![n, c]⟩ x h (ix2 p k) = x (ix3 i r k) :=
  shapeCast_apply x h _ _ (by
    rw [Shape.rowMajor_val_three, Shape.rowMajor_val_two]
    show (i.val * b + r.val) * c + k.val = p.val * c + k.val
    rw [hp])

/-- An [n, c] array (n = a·b) cast to [a, b, c] reads, at (i, r, k), the operand at row p = i·b + r and column k. -/
theorem shapeCast_split01_apply {a b c n : ℕ} (x : (⟨2, ![n, c]⟩ : Shape).Idx → α)
    (h : (⟨2, ![n, c]⟩ : Shape).ShapeCasts ⟨3, ![a, b, c]⟩) (p : Fin n) (i : Fin a) (r : Fin b) (k : Fin c)
    (hp : p.val = i.val * b + r.val) : shapeCast ⟨3, ![a, b, c]⟩ x h (ix3 i r k) = x (ix2 p k) :=
  shapeCast_apply x h _ _ (by
    rw [Shape.rowMajor_val_three, Shape.rowMajor_val_two]
    show p.val * c + k.val = (i.val * b + r.val) * c + k.val
    rw [hp])

/-- A row [1, 1, c] broadcast to [a, b, c] reads, at (i, r, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (r : Fin b) (k : Fin c) :
    broadcastTo ⟨3, ![a, b, c]⟩ v h (ix3 i r k) = v (ix3 (0 : Fin 1) (0 : Fin 1) k) := by
  refine broadcastTo_apply v h (ix3 i r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A matrix [1, b, c] broadcast to [a, b, c] reads, at (i, r, k), the matrix at (r, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (k : Fin c) :
    broadcastTo ⟨3, ![a, b, c]⟩ v h (ix3 i r k) = v (ix3 (0 : Fin 1) r k) := by
  refine broadcastTo_apply v h (ix3 i r k) (ix3 (0 : Fin 1) r k) fun ax => ?_
  match ax with
  | ⟨0, _⟩ => rfl
  | ⟨1, _⟩ =>
    show r.val = if b = 1 then 0 else r.val
    split
    · have := r.isLt; omega
    · rfl
  | ⟨2, _⟩ =>
    show k.val = if c = 1 then 0 else k.val
    split
    · have := k.isLt; omega
    · rfl

/-- An [a, 1] column cast to the vector [a] reads, at i, the column's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to [1, 1, a] reads, at (u, v, i), the vector's entry i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- At the ideal values the sum of an [a, b, c] block over its batch axis reads, at (r, k), the sum over the batches i of
    the block at (i, r, k). -/
theorem sum_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ i : Fin a, src (ix3 i r k) := by
  refine (Ideal.multiReduction_add_single src _ h hφ hacc (ix2 r k)).trans ?_
  refine Finset.sum_congr rfl fun i _ => ?_
  exact congrArg src (funext fun ax => Fin.ext (by match ax with | ⟨0, _⟩ => rfl | ⟨1, _⟩ => rfl | ⟨2, _⟩ => rfl))

/-- At the ideal values the sum of an [a, b, c] block over its last axis reads, at (i, r), the sum over k of the block at
    (i, r, k). -/
theorem sum_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (r : Fin b) :
    multiReduction .add [2] ⟨2, ![a, b]⟩ src 0x00000000#32 h hφ hacc (ix2 i r) = ∑ k : Fin c, src (ix3 i r k) := by
  refine (Ideal.multiReduction_add_single src _ h hφ hacc (ix2 i r)).trans ?_
  refine Finset.sum_congr rfl fun k _ => ?_
  exact congrArg src (funext fun ax => Fin.ext (by match ax with | ⟨0, _⟩ => rfl | ⟨1, _⟩ => rfl | ⟨2, _⟩ => rfl))

/-- At the ideal values a matrix product [n, K] × [K, F] into the zero accumulator reads, at (p, f), the sum over the
    contraction coordinate k of left (p, k) times right (k, f) — for any dimension numbers with one contracted axis of
    extent K whose operand indices are the rows of the left operand and the columns of the right one (the four
    coordinate facts, which compute on a literal record). -/
theorem matmul_rows_apply {n K F : ℕ} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ .f32) (r : FVec Ideal ⟨2, ![K, F]⟩ .f32)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibBatchBlocks

end
-- ==== Proof.KernelHost.lean ====
/-
  What the host computes before the kernel region starts, for four of the five arrays the region reads.

  The left operand of the main product is the input x[b, s, ·] with the batch and sequence axes merged: row
  b · 2048 + s of an [8192, 4096] matrix is the feature row of (b, s).  The correction factor B[o, r] is handed over
  transposed, as a [16, 4096] matrix whose entry (r, o) is B[o, r].  The bias is handed over as a matrix with a single
  row.  The projection onto the sixteen directions of A is computed on the host as a plain matrix product of the merged
  input with the transpose of A, so its entry (b · 2048 + s, r) is the sum over the input features l of
  x[b, s, l] · A[r, l].  On the extended reals the narrowing conversions change nothing, so each array is read entry
  by entry straight from the program's arguments.
-/
import proofs.«149406_j5781025980674_2_alg».proof.Proof.Gen.KernelIdeal.Frame.Runs
import proofs.«149406_j5781025980674_2_alg».proof.Proof.Spec
import proofs.«149406_j5781025980674_2_alg».proof.Proof.LibBatchBlocks
import proofs.«149406_j5781025980674_2_alg».proof.Proof.LibPlainDot

set_option maxRecDepth 16384

noncomputable section

open scoped BigOperators

namespace Cert.KernelIdeal.Host

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ)

/-- The left operand of the main product, as a whole array: the input with its two leading axes merged. -/
theorem arr0_term (c : Dev nD) :
    (V m c main_v17 : FVec Ideal S8192x4096 .bf16)
      = truncf (F := Ideal) .bf16 (shapeCast S8192x4096 (m ((c : Thread nD τ).loc main_arg0) : FVec Ideal S4x2048x4096 .f32) shapeCasts_S4x2048x4096_S8192x4096) bitsLt_bf16_f32 := by
  dsimp only [Gen.V, Gen.V0]
  simp only [hostOps0, hostOps0_1, hostOps0_2, hostOps0_3, hostOps0_4, List.flatten_cons, List.flatten_nil, List.append_nil, List.cons_append, List.nil_append]
  after_results_simp
  rfl

/-- The correction factor B, as a whole array: transposed. -/
theorem arr3_term (c : Dev nD) :
    (V m c main_v21 : FVec Ideal S16x4096 .bf16)
      = truncf (F := Ideal) .bf16 (transpose S16x4096 [1, 0] (m ((c : Thread nD τ).loc main_arg6) : FVec Ideal S4096x16 .f32) transposes_S4096x16_S16x4096_1_0) bitsLt_bf16_f32 := by
  dsimp only [Gen.V, Gen.V0]
  simp only [hostOps0, hostOps0_1, hostOps0_2, hostOps0_3, hostOps0_4, List.flatten_cons, List.flatten_nil, List.append_nil, List.cons_append, List.nil_append]
  after_results_simp

/-- The bias, as a whole array: a matrix with one row. -/
theorem arr4_term (c : Dev nD) :
    (V m c main_v22 : FVec Ideal S1x4096 .f32)
      = shapeCast S1x4096 (m ((c : Thread nD τ).loc main_arg4) : FVec Ideal S4096 .f32) shapeCasts_S4096_S1x4096 := by
  dsimp only [Gen.V, Gen.V0]
  simp only [hostOps0, hostOps0_1, hostOps0_2, hostOps0_3, hostOps0_4, List.flatten_cons, List.flatten_nil, List.append_nil, List.cons_append, List.nil_append]
  after_results_simp
  rfl

/-- The projection onto the directions of A, as a whole array: the merged input times the transpose of A. -/
theorem arr2_term (c : Dev nD) :
    (V m c main_v24 : FVec Ideal S8192x16 .bf16)
      = truncf (F := Ideal) .bf16
          (Host.dotGeneral (F := Ideal) dot_S8192x4096_S4096x16_S8192x16_1_0_0_1_n_n none
            (truncf (F := Ideal) .bf16 (shapeCast S8192x4096 (m ((c : Thread nD τ).loc main_arg0) : FVec Ideal S4x2048x4096 .f32) shapeCasts_S4x2048x4096_S8192x4096) bitsLt_bf16_f32)
            (truncf (F := Ideal) .bf16 (transpose S4096x16 [1, 0] (m ((c : Thread nD τ).loc main_arg5) : FVec Ideal S16x4096 .f32) transposes_S16x4096_S4096x16_1_0) bitsLt_bf16_f32))
          bitsLt_bf16_f32 := by
  dsimp only [Gen.V, Gen.V0]
  simp only [hostOps0, hostOps0_1, hostOps0_2, hostOps0_3, hostOps0_4, List.flatten_cons, List.flatten_nil, List.append_nil, List.cons_append, List.nil_append]
  after_results_simp
  rfl

/-- Row b · 2048 + s of the left operand is the feature row of (b, s). -/
theorem arr0_apply (c : Dev nD) (b : Fin 4) (s : Fin 2048) (l : Fin 4096) (R : Fin 8192) (hR : R.val = b.val * 2048 + s.val) :
    (V m c (Pipeline.arrRef spec0 0) : S8192x4096.Idx → EReal) (ix2 R l)
      = (m ((c : Thread nD τ).loc main_arg0) : S4x2048x4096.Idx → EReal) (ix3 b s l) := by
  show (V m c main_v17 : FVec Ideal S8192x4096 .bf16) (ix2 R l) = _
  refine (congrFun (arr0_term m c) (ix2 R l)).trans ?_
  refine (truncf_apply (ψ := .bf16) _ bitsLt_bf16_f32 _).trans ?_
  exact Cert.LibBatchBlocks.shapeCast_merge01_apply _ _ R b s l hR

/-- Entry (b · 2048 + s, r) of the projection is the sum over the input features l of x[b, s, l] · A[r, l]. -/
theorem arr2_apply (c : Dev nD) (b : Fin 4) (s : Fin 2048) (R : Fin 8192) (hR : R.val = b.val * 2048 + s.val) (r : Fin 16) :
    (V m c (Pipeline.arrRef spec0 2) : S8192x16.Idx → EReal) (ix2 R r)
      = Cert.Spec.xaAt (m ((c : Thread nD τ).loc main_arg0)) (m ((c : Thread nD τ).loc main_arg5)) b s r := by
  show (V m c main_v24 : FVec Ideal S8192x16 .bf16) (ix2 R r) = _
  refine (congrFun (arr2_term m c) (ix2 R r)).trans ?_
  refine (truncf_apply (ψ := .bf16) _ bitsLt_bf16_f32 _).trans ?_
  refine (Cert.LibPlainDot.dotGeneral_apply dot_S8192x4096_S4096x16_S8192x16_1_0_0_1_n_n rfl rfl rfl rfl rfl rfl none .single _ _ R r).trans ?_
  unfold Cert.Spec.xaAt
  refine Finset.sum_congr rfl fun j _ => ?_
  refine congrArg₂ (· * ·) ?_ ?_
  · exact (truncf_apply (ψ := .bf16) _ bitsLt_bf16_f32 _).trans (Cert.LibBatchBlocks.shapeCast_merge01_apply _ _ R b s j hR)
  · exact (truncf_apply (ψ := .bf16) _ bitsLt_bf16_f32 _).trans (transpose_ix2_apply _ _ j r)

/-- Entry (r, o) of the transposed correction factor is B[o, r]. -/
theorem arr3_apply (c : Dev nD) (r : Fin 16) (o : Fin 4096) :
    (V m c (Pipeline.arrRef spec0 3) : S16x4096.Idx → EReal) (ix2 r o)
      = (m ((c : Thread nD τ).loc main_arg6) : S4096x16.Idx → EReal) (ix2 o r) := by
  show (V m c main_v21 : FVec Ideal S16x4096 .bf16) (ix2 r o) = _
  refine (congrFun (arr3_term m c) (ix2 r o)).trans ?_
  refine (truncf_apply (ψ := .bf16) _ bitsLt_bf16_f32 _).trans ?_
  exact transpose_ix2_apply _ _ r o

/-- Entry (0, o) of the one-row bias matrix is bias[o]. -/
theorem arr4_apply (c : Dev nD) (o : Fin 4096) :
    (V m c (Pipeline.arrRef spec0 4) : S1x4096.Idx → EReal) (ix2 (0 : Fin 1) o)
      = (m ((c : Thread nD τ).loc main_arg4) : S4096.Idx → EReal) (ix1 o) := by
  show (V m c main_v22 : FVec Ideal S1x4096 .f32) (ix2 (0 : Fin 1) o) = _
  refine (congrFun (arr4_term m c) (ix2 (0 : Fin 1) o)).trans ?_
  exact shapeCast_a_1a_apply _ _ (0 : Fin 1) o

end Cert.KernelIdeal.Host

end
-- ==== Proof.Dequant.lean ====
/-
  The dequantized weights as one function of the three quantization arguments.

  Each of the two codebooks holds 256 rows of eight numbers.  A table of row numbers picks one row per (output feature,
  group); a negative row number is first shifted up by 256, and a row number still outside 0 … 255 yields the fill
  value instead of a row.  The two picked rows are added and the sum is scaled by the output feature's scale.  Both
  programs compute this array by the same sequence of operations before they go their separate ways, so it is carried
  as one unopened function: nothing about the selection, the gather or the fill value is ever needed, only that the two
  sides hold the same array.
-/
import proofs.«149406_j5781025980674_2_alg».proof.Proof.Gen.ReferenceIdeal

noncomputable section

namespace Cert.Dequant

open Idealize.ShloMosaic Cert.ReferenceIdeal

variable {F : FTy → Type} [FloatOps F] [Cert.ReferenceIdeal.Facts]

open Cert.ReferenceIdeal.Facts₀ Cert.ReferenceIdeal.Facts

/-- Rows of one codebook picked by a table of row numbers, the fill value where the row number is out of range. -/
def takeRows (cb : (⟨S256x1x8, .f32⟩ : BufTy).Contents (Elt F)) (idx : (⟨S4096x512, .i32⟩ : BufTy).Contents (Elt F)) :
    (⟨S4096x512x1x8, .f32⟩ : BufTy).Contents (Elt F) :=
  select
    (broadcastInDim S4096x512x1x8 ![0, 1] bcast_S4096x512_S4096x512x1x8_0_1
      (Host.reduce IntOp.andi
        (andi
          (cmpi .sge
            (broadcastInDim S4096x512x1 ![0, 1] bcast_S4096x512_S4096x512x1_0_1
              (select (cmpi .slt idx (broadcastInDim S4096x512 ![] bcast_S_S4096x512 (constantI S_ 32 0#32)))
                (addi idx (broadcastInDim S4096x512 ![] bcast_S_S4096x512 (constantI S_ 32 256#32))) idx))
            (broadcastInDim S4096x512x1 ![] bcast_S_S4096x512x1 (constantI S_ 32 0#32)))
          (cmpi .sle
            (broadcastInDim S4096x512x1 ![0, 1] bcast_S4096x512_S4096x512x1_0_1
              (select (cmpi .slt idx (broadcastInDim S4096x512 ![] bcast_S_S4096x512 (constantI S_ 32 0#32)))
                (addi idx (broadcastInDim S4096x512 ![] bcast_S_S4096x512 (constantI S_ 32 256#32))) idx))
            (broadcastInDim S4096x512x1 ![0, 1, 2] bcast_S1x1x1_S4096x512x1_0_1_2
              (broadcastInDim S1x1x1 ![2] bcast_S1_S1x1x1_2 (constantI S1 32 255#32)))))
        (constantI S_ 1 1#1) reducesTo_S4096x512x1_S4096x512_d2 h_S_))
    (Host.gather gather_S256x1x8_S4096x512x1_S4096x512x1x8_23_0_n_n_0_2_118 cb
      (broadcastInDim S4096x512x1 ![0, 1] bcast_S4096x512_S4096x512x1_0_1
        (select (cmpi .slt idx (broadcastInDim S4096x512 ![] bcast_S_S4096x512 (constantI S_ 32 0#32)))
          (addi idx (broadcastInDim S4096x512 ![] bcast_S_S4096x512 (constantI S_ 32 256#32))) idx)))
    (broadcastInDim S4096x512x1x8 ![] bcast_S_S4096x512x1x8 (constant S_ .f32 0x7FC00000#32))

/-- The dequantized weights w4[o, g, 0, e]: the two codebooks' picked rows added, times the output feature's scale. -/
def w4 (codes : (⟨S4096x512x2, .i32⟩ : BufTy).Contents (Elt F)) (cb : (⟨S2x256x1x8, .f32⟩ : BufTy).Contents (Elt F))
    (sc : (⟨S4096x1x1x1, .f32⟩ : BufTy).Contents (Elt F)) : (⟨S4096x512x1x8, .f32⟩ : BufTy).Contents (Elt F) :=
  mulf
    (addf
      (takeRows
        (shapeCast S256x1x8 (extractStridedSlice S1x256x1x8 ![0, 0, 0, 0] cb slices_S2x256x1x8_S1x256x1x8_0_0_0_0)
          shapeCasts_S1x256x1x8_S256x1x8)
        (shapeCast S4096x512 (extractStridedSlice S4096x512x1 ![0, 0, 0] codes slices_S4096x512x2_S4096x512x1_0_0_0)
          shapeCasts_S4096x512x1_S4096x512))
      (takeRows
        (shapeCast S256x1x8 (extractStridedSlice S1x256x1x8 ![1, 0, 0, 0] cb slices_S2x256x1x8_S1x256x1x8_1_0_0_0)
          shapeCasts_S1x256x1x8_S256x1x8)
        (shapeCast S4096x512 (extractStridedSlice S4096x512x1 ![0, 0, 1] codes slices_S4096x512x2_S4096x512x1_0_0_1)
          shapeCasts_S4096x512x1_S4096x512)))
    (broadcastInDim S4096x512x1x8 ![0, 1, 2, 3] bcast_S4096x1x1x1_S4096x512x1x8_0_1_2_3 sc)

end Cert.Dequant

end
-- ==== Proof.LibTypedRefs.lean ====
/-
  A typed tensor reference moves a value between the value's own type and the type its buffer is declared with; the two
  moves at one buffer undo each other, whatever the proofs the two typed references carry.
-/
import Idealize.ShloMosaic.Lib.StableHlo

noncomputable section

namespace Cert.LibTypedRefs

open Idealize.ShloMosaic Idealize.ShloMosaic.StableHlo

/-- Reading back through a typed reference what was written through a typed reference to the same buffer gives the value
    written. -/
theorem ofBuf_toBuf {sig : RefSig} {Val : EltTy → Type} {T : BufTy} (r : Ref sig .tc) (h h' : r.ty = T)
    (a a' : r.space ≠ .host) (b b' : r.isScoped = false) (u : T.Contents Val) :
    (TRef.of r h a b).ofBuf ((TRef.of r h' a' b').toBuf u) = u := by
  subst h; rfl

end Cert.LibTypedRefs

end
-- ==== Proof.KernelHostDequant.lean ====
/-
  What the host computes before the kernel region starts, for the right operand of the main product.

  The host first dequantizes the weights into their natural layout w4[o, g, 0, e] (output feature o, group g of eight
  consecutive input features, position e inside the group), by the same sequence of operations as the reference program,
  so the result is the same unopened function of the three quantization arguments.  It then permutes the axes to
  (g, e, o, 0) and flattens to a [4096, 4096] matrix whose row l = 8 · g + e is input feature l and whose column is the
  output feature.  Entry (l, o) of that matrix is therefore w4[o, l / 8, 0, l % 8], the weight joining output feature o
  and input feature l.  On the extended reals the narrowing conversion changes nothing.
-/
import proofs.«149406_j5781025980674_2_alg».proof.Proof.Gen.KernelIdeal.Frame.Runs
import proofs.«149406_j5781025980674_2_alg».proof.Proof.Spec
import proofs.«149406_j5781025980674_2_alg».proof.Proof.Dequant
import proofs.«149406_j5781025980674_2_alg».proof.Proof.LibTypedRefs
import Idealize.ShloMosaic.Lib.ValueLayout
import Idealize.ShloMosaic.Lib.Pipeline.Value

set_option maxRecDepth 16384

noncomputable section

open scoped BigOperators

namespace Cert.KernelIdeal.Host

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ)

/-- A [512, 8, 4096, 1] array cast to [4096, 4096] reads, at row l and column o, the operand at (l / 8, l % 8, o, 0):
    both positions are number l · 4096 + o in row-major order, since 8 · (l / 8) + l % 8 = l. -/
theorem shapeCast_groups_apply {α : Type} (x : (⟨4, ![512, 8, 4096, 1]⟩ : Shape).Idx → α)
    (h : (⟨4, ![512, 8, 4096, 1]⟩ : Shape).ShapeCasts ⟨2, ![4096, 4096]⟩) (l o : Fin 4096) :
    shapeCast ⟨2, ![4096, 4096]⟩ x h (ix2 l o) = x (ix4 (Cert.Spec.grp l) (Cert.Spec.pos l) o (0 : Fin 1)) :=
  shapeCast_apply x h _ _ (by
    rw [Shape.rowMajor_val_four, Shape.rowMajor_val_two]
    show ((l.val / 8 * 8 + l.val % 8) * 4096 + o.val) * 1 + 0 = l.val * 4096 + o.val
    omega)

/-- The transposition with permutation [1, 3, 0, 2] of an [4096, 512, 1, 8] array reads, at (g, e, o, u), the operand at
    (o, g, u, e). -/
theorem transpose_1302_apply {α : Type} (x : (⟨4, ![4096, 512, 1, 8]⟩ : Shape).Idx → α)
    (h : (⟨4, ![4096, 512, 1, 8]⟩ : Shape).Transposes [1, 3, 0, 2] ⟨4, ![512, 8, 4096, 1]⟩)
    (g : Fin 512) (e : Fin 8) (o : Fin 4096) (u : Fin 1) :
    transpose ⟨4, ![512, 8, 4096, 1]⟩ [1, 3, 0, 2] x h (ix4 g e o u) = x (ix4 o g u e) :=
  transpose_apply _ x h _ _ fun b => match b with | ⟨0, _⟩ => rfl | ⟨1, _⟩ => rfl | ⟨2, _⟩ => rfl | ⟨3, _⟩ => rfl

attribute [local irreducible] Host.reduce Host.gather in
set_option maxHeartbeats 400000 in
/-- The right operand of the main product, as a whole array: the dequantized weights with their axes permuted to
    (group, position, output feature, 1) and flattened to (input feature, output feature).  The dequantization is the
    same term as the reference program's, operation for operation; the row selection and the reduction inside it are
    compared by their arguments only and never opened. -/
theorem arr1_term (c : Dev nD) :
    (V m c main_v15 : FVec Ideal S4096x4096 .bf16)
      = truncf (F := Ideal) .bf16
          (shapeCast S4096x4096
            (transpose S512x8x4096x1 [1, 3, 0, 2]
              (Cert.Dequant.w4 (F := Ideal) (m ((c : Thread nD τ).loc main_arg1)) (m ((c : Thread nD τ).loc main_arg2)) (m ((c : Thread nD τ).loc main_arg3)))
              transposes_S4096x512x1x8_S512x8x4096x1_1_3_0_2)
            shapeCasts_S512x8x4096x1_S4096x4096)
          bitsLt_bf16_f32 := by
  dsimp only [Gen.V, Gen.V0]
  simp only [hostOps0, hostOps0_1, hostOps0_2, hostOps0_3, hostOps0_4, List.flatten_cons, List.flatten_nil, List.append_nil, List.cons_append, List.nil_append]
  after_results_simp
  simp only [Cert.LibTypedRefs.ofBuf_toBuf]
  rfl

/-- Entry (l, o) of the right operand is the dequantized weight joining output feature o and input feature l. -/
theorem arr1_apply (c : Dev nD) (l o : Fin 4096) :
    (V m c (Pipeline.arrRef spec0 1) : S4096x4096.Idx → EReal) (ix2 l o)
      = Cert.Spec.wAt (Cert.Dequant.w4 (F := Ideal) (m ((c : Thread nD τ).loc main_arg1)) (m ((c : Thread nD τ).loc main_arg2)) (m ((c : Thread nD τ).loc main_arg3))) o l := by
  show (V m c main_v15 : FVec Ideal S4096x4096 .bf16) (ix2 l o) = _
  refine (congrFun (arr1_term m c) (ix2 l o)).trans ?_
  refine (truncf_apply (ψ := .bf16) _ bitsLt_bf16_f32 _).trans ?_
  refine (shapeCast_groups_apply _ _ l o).trans ?_
  exact transpose_1302_apply _ _ (Cert.Spec.grp l) (Cert.Spec.pos l) o (0 : Fin 1)

end Cert.KernelIdeal.Host

end
-- ==== Proof.KernelBridge.lean ====
/-
  The kernel program's result is the specification's function of the arguments.

  The region's result entry (R, O) is written over the five arrays the region reads.  Each of them is a re-laid copy of
  an argument: the input rows 2048·b + s are the rows (b, s) of x; the weight matrix's entry (l, O) is the dequantized
  weight joining output O and input l; the projection's entry (R, r) is the inner product of row (b, s) of x with row r
  of A; the correction's entry (r, O) is B[O, r]; the bias row's entry O is bias[O].  Substituting, entry (2048·b + s, O)
  of the region's result is the specification's entry (b, s, O), summand by summand, and the host's final reshape reads
  entry (b, s, O) of its result at row 2048·b + s.
-/
import proofs.«149406_j5781025980674_2_alg».proof.Proof.KernelAccum
import proofs.«149406_j5781025980674_2_alg».proof.Proof.KernelHost
import proofs.«149406_j5781025980674_2_alg».proof.Proof.KernelHostDequant
import proofs.«149406_j5781025980674_2_alg».proof.Proof.LibBatchBlocks

set_option maxRecDepth 16384

noncomputable section

open scoped BigOperators

namespace Cert.KernelIdeal.Bridge

open Idealize.ShloMosaic Idealize.ShloMosaic.TcCoe Idealize.SL.Sem Idealize.ShloMosaic.ValueIdx
open Cert.KernelIdeal Cert.KernelIdeal.Gen Cert.KernelIdeal.Accum Cert.KernelIdeal.Host Cert.LibNatRead

variable (m : (ℓ : Loc nD τ sig) → Buf (Elt Ideal) ℓ)

/-- Entry (2048·b + s, o) of the region's result is the specification's entry (b, s, o). -/
theorem kOutN_eq (c : Dev nD) (b : Fin 4) (s : Fin 2048) (o : Fin 4096) :
    kOutN m c (b.val * 2048 + s.val) o.val
      = Cert.Spec.outAt (m ((c : Thread nD τ).loc main_arg0))
          (Cert.Dequant.w4 (F := Ideal) (m ((c : Thread nD τ).loc main_arg1)) (m ((c : Thread nD τ).loc main_arg2)) (m ((c : Thread nD τ).loc main_arg3)))
          (m ((c : Thread nD τ).loc main_arg4)) (m ((c : Thread nD τ).loc main_arg5)) (m ((c : Thread nD τ).loc main_arg6)) b s o := by
  have hR : b.val * 2048 + s.val < 8192 := by have := b.isLt; have := s.isLt; omega
  obtain ⟨R, hRv⟩ : ∃ R : Fin 8192, R.val = b.val * 2048 + s.val := ⟨⟨_, hR⟩, rfl⟩
  rw [← hRv]
  unfold kOutN Cert.Spec.outAt
  refine congrArg₂ (· + ·) (congrArg₂ (· + ·) (Finset.sum_congr rfl fun l _ => congrArg₂ (· * ·) ?_ ?_) ?_)
    (congrArg (Cert.Spec.two * ·) (Finset.sum_congr rfl fun r _ => congrArg₂ (· * ·) ?_ ?_))
  · exact (rd2_ix2 _ _ _ R l).trans (arr0_apply m c b s l R hRv)
  · exact (rd2_ix2 _ _ _ l o).trans (arr1_apply m c l o)
  · exact (rd2_ix2 _ _ _ (0 : Fin 1) o).trans (arr4_apply m c o)
  · exact (rd2_ix2 _ _ _ R r).trans (arr2_apply m c b s R hRv r)
  · exact (rd2_ix2 _ _ _ r o).trans (arr3_apply m c r o)

/-- The region's result, split back into batches, is the specification's output array. -/
theorem result_eq (c : Dev nD) :
    shapeCast S4x2048x4096 (kOut m c) shapeCasts_S8192x4096_S4x2048x4096
      = Cert.Spec.out (m ((c : Thread nD τ).loc main_arg0))
          (Cert.Dequant.w4 (F := Ideal) (m ((c : Thread nD τ).loc main_arg1)) (m ((c : Thread nD τ).loc main_arg2)) (m ((c : Thread nD τ).loc main_arg3)))
          (m ((c : Thread nD τ).loc main_arg4)) (m ((c : Thread nD τ).loc main_arg5)) (m ((c : Thread nD τ).loc main_arg6)) := by
  funext i
  obtain ⟨b, s, o, rfl⟩ : ∃ (b : Fin 4) (s : Fin 2048) (o : Fin 4096), i = ix3 b s o := ⟨i 0, i 1, i 2, eq_ix3 i⟩
  have hR : b.val * 2048 + s.val < 8192 := by have := b.isLt; have := s.isLt; omega
  refine (Cert.LibBatchBlocks.shapeCast_split01_apply (kOut m c) shapeCasts_S8192x4096_S4x2048x4096 ⟨b.val * 2048 + s.val, hR⟩ b s o rfl).trans ?_
  exact kOutN_eq m c b s o

end Cert.KernelIdeal.Bridge

end
-- ==== Proof.KernelFinal.lean ====
/-
  The result array after the run, and the program's result after the host tail.

  The output window is written back exactly at the last point of each run of four grid points, and at such a point t the
  block written is block (t / 16, t / 4 % 4) of one function of the five arrays the region reads: entry (R, O) is
  (∑ l, X[R, l] · W[l, O] + bias[0, O]) + 2 · ∑ r, XA[R, r] · Bt[r, O].  Every entry (R, O) of the [8192, 4096] result lies
  in the block written at point 16·(R / 1024) + 4·(O / 1024) + 3, so the blocks cover the array and the array ends holding
  that function.  The one host operation after the region splits the 8192 rows back into 4 batches of 2048.
-/
import proofs.«149406_j5781025980674_2_alg».proof.Proof.KernelAccum
import Idealize.ShloMosaic.Lib.StableHlo.Run

set_option maxRecDepth 16384

noncomputable section

namespace Cert.KernelIdeal.Final

open Idealize.ShloMosaic Idealize.ShloMosaic.TcCoe Idealize.SL.Sem Idealize.ShloMosaic.ValueIdx
open Cert.KernelIdeal Cert.KernelIdeal.Gen Cert.KernelIdeal.Grid Cert.KernelIdeal.Accum
open Idealize.ShloMosaic.Pipeline (Dat)

variable (m : (ℓ : Loc nD τ sig) → Buf (Elt Ideal) ℓ) (ρ : Dev nD → PrngReg)

/-- What a flushing point writes back is its block of the result function. -/
theorem flushed_eq (c : Dev nD) (t : Fin cfg0.N) (hf : (cfg0.win 5).flush t = true) :
    (dats m 0 c).flushed 5 t = ((cfg0.win 5).blk t).view.read (Elt Ideal) (kOut m c) := by
  have h3 : t.val % 4 = 3 := (flush0_5 t).mp hf
  funext y
  obtain ⟨p, q, rfl⟩ : ∃ (p q : Fin 1024), y = ix2 p q := ⟨y 0, y 1, eq_ix2 y⟩
  show (cfg0.win 5).cut (grid0.coords t) ((dats m 0 c).after 5 t) (ix2 p q) = _
  rw [after0_5, View.read_apply]
  show (outsAt0 m c t.val t.isLt).1 (ix2 p q) = kOut m c _
  unfold kOut
  refine (out_block m c t h3 p q).trans (congrArg₂ (kOutN m c) ?_ ?_)
  · show _ = win0_5.index t 0 * 1024 + 1 * p.val
    rw [(idx5 t).1]; omega
  · show _ = win0_5.index t 1 * 1024 + 1 * q.val
    rw [(idx5 t).2]; omega

/-- Every entry of the result lies in the block some flushing point writes. -/
theorem cover (c : Dev nD) (i : S8192x4096.Idx) :
    ∃ t : Fin cfg0.N, (cfg0.win 5).flush t = true ∧ i ∈ ((cfg0.win 5).blk t).view.set := by
  have hN : cfg0.N = 128 := N_0
  have h0 : (i 0).val < 8192 := (i 0).isLt
  have h1 : (i 1).val < 4096 := (i 1).isLt
  have hlt : 16 * ((i 0).val / 1024) + 4 * ((i 1).val / 1024) + 3 < cfg0.N := by rw [hN]; omega
  obtain ⟨t, ht⟩ : ∃ t : Fin cfg0.N, t.val = 16 * ((i 0).val / 1024) + 4 * ((i 1).val / 1024) + 3 := ⟨⟨_, hlt⟩, rfl⟩
  refine ⟨t, (flush0_5 t).mpr (by rw [ht]; omega), ?_⟩
  show i ∈ ((View.whole main_v25).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [(idx5 t).1, ht]; omega
  | ⟨1, _⟩ =>
    show win0_5.index t 1 * 1024 ≤ (i 1).val ∧ (i 1).val < win0_5.index t 1 * 1024 + 1024
    rw [(idx5 t).2, ht]; omega

/-- The result array after the run. -/
theorem final (c : Dev nD) : (dats m 0 c).arrAt 5 cfg0.N = kOut m c :=
  (dats m 0 c).arrAt_eq_of_cover 5 (kOut m c) (flushed_eq m c) (cover c)

end Cert.KernelIdeal.Final

end
-- ==== Proof.KernelRun.lean ====
/-
  The kernel program's run, read: its result is the specification's function of its arguments.

  After the region the program reshapes the [8192, 4096] result into [4, 2048, 4096].  The region's result array ends at
  the function found for it, so the program's result is that function split back into batches, which is the
  specification's output array; the arguments end as they were launched.
-/
import proofs.«149406_j5781025980674_2_alg».proof.Proof.KernelBridge
import proofs.«149406_j5781025980674_2_alg».proof.Proof.KernelFinal

set_option maxRecDepth 16384

noncomputable section

namespace Cert.KernelIdeal.Value

open Idealize.ShloMosaic Idealize.ShloMosaic.TcCoe Idealize.SL.Sem Idealize.ShloMosaic.ValueIdx Idealize.ShloMosaic.StableHlo
open Cert.KernelIdeal Cert.KernelIdeal.Gen Cert.KernelIdeal.Accum

variable (m : (ℓ : Loc nD τ sig) → Buf (Elt Ideal) ℓ) (ρ : Dev nD → PrngReg)

/-- The program's result buffer after the host tail: the region's result array, split back into batches. -/
theorem tail_eq (c : Dev nD) :
    Pipeline.afterTail₀ cfgs (dats m) 0 (V0 m) [hostOps1] c main_v26
      = shapeCast S4x2048x4096 (kOut m c) shapeCasts_S8192x4096_S4x2048x4096 := by
  unfold Pipeline.afterTail₀
  show StableHlo.after hostOps1 _ (Proc.devRef .tc main_v26) = _
  after_results
  rw [show Pipeline.withArrays (cfgs 0).spec c (V0 m c) (fun w => (dats m 0 c).arrAt w (cfgs 0).N) (Proc.devRef .tc main_v25)
      = kOut m c from (Pipeline.withArrays_arr spec0 launch0.win.arr_inj c _ _ 5).trans (Cert.KernelIdeal.Final.final m c)]
  rfl

/-- Every weakly fair execution of the kernel program terminates with its result at the specification's function of
    the arguments and the arguments unchanged. -/
theorem run : θ_run (defs (F := Ideal)) (onTc (τ := τ) (main (F := Ideal))) ⟨m, fun _ => 0, ρ⟩ fun r => ∀ c : Dev nD,
      r.2.mem ((c.tc : Thread nD τ).loc main_v26) = Cert.Spec.out (m ((c.tc : Thread nD τ).loc main_arg0))
          (Cert.Dequant.w4 (F := Ideal) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(((h c).2 main_v26 (Pipeline.mem_restRefs_of main_v26 (by decide) (by decide))).trans (tail_eq m c)).trans (Cert.KernelIdeal.Bridge.result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Value

end
-- ==== Proof.RefRun.lean ====
/-
  The reference program as one straight line of tensor operations, and its run.

  The program first slices and reshapes the two codebooks and the two tables of row numbers, picks rows twice (each
  pick is the same twenty-three operations: the row numbers shifted where negative, the range test, the gather, the
  fill), adds the two picks and scales them, and then forms the output from the dequantized weights, the bias and the
  low-rank pair.  Written out with every call replaced by the callee's operations over that call's buffers it is a list
  of sixty-nine operations, and every execution ends with each buffer holding what the operations, applied in order to
  the contents at the start, leave there.
-/
import proofs.«149406_j5781025980674_2_alg».proof.Proof.Gen.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F]

/-- The program's sixty-nine operations in order: four that cut out the first codebook and the first table of row
    numbers, the twenty-three of the first pick, the same four and twenty-three for the second codebook and table, and
    the fifteen that add, scale, lay the weights out as a matrix and form the output. -/
abbrev ops : List (HloOp τ sig (Elt F)) :=
  [ StableHlo.unary main_arg2 main_v0 ((extractStridedSlice S1x256x1x8 ![0, 0, 0, 0] · slices_S2x256x1x8_S1x256x1x8_0_0_0_0) : (⟨S2x256x1x8, .f32⟩ : BufTy).Contents (Elt F) → (⟨S1x256x1x8, .f32⟩ : BufTy).Contents (Elt F)),
    StableHlo.reshape main_v0 main_v1 rfl shapeCasts_S1x256x1x8_S256x1x8,
    StableHlo.unary main_arg1 main_v2 ((extractStridedSlice S4096x512x1 ![0, 0, 0] · slices_S4096x512x2_S4096x512x1_0_0_0) : (⟨S4096x512x2, .i32⟩ : BufTy).Contents (Elt F) → (⟨S4096x512x1, .i32⟩ : BufTy).Contents (Elt F)),
    StableHlo.reshape main_v2 main_v3 rfl shapeCasts_S4096x512x1_S4096x512,
    StableHlo.TRef.nullary main_call0.c (constantI S_ 32 0#32),
    StableHlo.TRef.unary main_call0.c main_call0.v0 (broadcastInDim S4096x512 ![] bcast_S_S4096x512),
    StableHlo.TRef.binary (.of main_v3 : StableHlo.TRef sig ⟨S4096x512, .i32⟩) main_call0.v0 main_call0.v1 (cmpi .slt),
    StableHlo.TRef.nullary main_call0.c_0 (constantI S_ 32 256#32),
    StableHlo.TRef.unary main_call0.c_0 main_call0.v2 (broadcastInDim S4096x512 ![] bcast_S_S4096x512),
    StableHlo.TRef.binary (.of main_v3 : StableHlo.TRef sig ⟨S4096x512, .i32⟩) main_call0.v2 main_call0.v3 addi,
    StableHlo.TRef.ternary main_call0.v1 main_call0.v3 (.of main_v3 : StableHlo.TRef sig ⟨S4096x512, .i32⟩) main_call0.call0.v0 select,
    StableHlo.TRef.unary main_call0.call0.v0 main_call0.v5 (broadcastInDim S4096x512x1 ![0, 1] bcast_S4096x512_S4096x512x1_0_1),
    StableHlo.TRef.nullary main_call0.c_1 (constantI S1 32 255#32),
    StableHlo.TRef.nullary main_call0.c_2 (constantI S_ 32 0#32),
    StableHlo.TRef.unary main_call0.c_2 main_call0.v6 (broadcastInDim S4096x512x1 ![] bcast_S_S4096x512x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4096x512x1 ![0, 1, 2] bcast_S1x1x1_S4096x512x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x512x1_S4096x512_d2 h_S_),
    StableHlo.TRef.binary (.of main_v1 : StableHlo.TRef sig ⟨S256x1x8, .f32⟩) main_call0.v5 main_call0.v13 (fun x i => Host.gather gather_S256x1x8_S4096x512x1_S4096x512x1x8_23_0_n_n_0_2_118 x i),
    StableHlo.TRef.unary main_call0.v12 main_call0.v14 (broadcastInDim S4096x512x1x8 ![0, 1] bcast_S4096x512_S4096x512x1x8_0_1),
    StableHlo.TRef.nullary main_call0.cst (constant S_ .f32 0x7FC00000#32),
    StableHlo.TRef.unary main_call0.cst main_call0.v15 (broadcastInDim S4096x512x1x8 ![] bcast_S_S4096x512x1x8),
    StableHlo.TRef.ternary main_call0.v14 main_call0.v13 main_call0.v15 main_call0.v16 select,
    StableHlo.unary main_arg2 main_v5 ((extractStridedSlice S1x256x1x8 ![1, 0, 0, 0] · slices_S2x256x1x8_S1x256x1x8_1_0_0_0) : (⟨S2x256x1x8, .f32⟩ : BufTy).Contents (Elt F) → (⟨S1x256x1x8, .f32⟩ : BufTy).Contents (Elt F)),
    StableHlo.reshape main_v5 main_v6 rfl shapeCasts_S1x256x1x8_S256x1x8,
    StableHlo.unary main_arg1 main_v7 ((extractStridedSlice S4096x512x1 ![0, 0, 1] · slices_S4096x512x2_S4096x512x1_0_0_1) : (⟨S4096x512x2, .i32⟩ : BufTy).Contents (Elt F) → (⟨S4096x512x1, .i32⟩ : BufTy).Contents (Elt F)),
    StableHlo.reshape main_v7 main_v8 rfl shapeCasts_S4096x512x1_S4096x512,
    StableHlo.TRef.nullary main_call1.c (constantI S_ 32 0#32),
    StableHlo.TRef.unary main_call1.c main_call1.v0 (broadcastInDim S4096x512 ![] bcast_S_S4096x512),
    StableHlo.TRef.binary (.of main_v8 : StableHlo.TRef sig ⟨S4096x512, .i32⟩) main_call1.v0 main_call1.v1 (cmpi .slt),
    StableHlo.TRef.nullary main_call1.c_0 (constantI S_ 32 256#32),
    StableHlo.TRef.unary main_call1.c_0 main_call1.v2 (broadcastInDim S4096x512 ![] bcast_S_S4096x512),
    StableHlo.TRef.binary (.of main_v8 : StableHlo.TRef sig ⟨S4096x512, .i32⟩) main_call1.v2 main_call1.v3 addi,
    StableHlo.TRef.ternary main_call1.v1 main_call1.v3 (.of main_v8 : StableHlo.TRef sig ⟨S4096x512, .i32⟩) main_call1.call0.v0 select,
    StableHlo.TRef.unary main_call1.call0.v0 main_call1.v5 (broadcastInDim S4096x512x1 ![0, 1] bcast_S4096x512_S4096x512x1_0_1),
    StableHlo.TRef.nullary main_call1.c_1 (constantI S1 32 255#32),
    StableHlo.TRef.nullary main_call1.c_2 (constantI S_ 32 0#32),
    StableHlo.TRef.unary main_call1.c_2 main_call1.v6 (broadcastInDim S4096x512x1 ![] bcast_S_S4096x512x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S4096x512x1 ![0, 1, 2] bcast_S1x1x1_S4096x512x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4096x512x1_S4096x512_d2 h_S_),
    StableHlo.TRef.binary (.of main_v6 : StableHlo.TRef sig ⟨S256x1x8, .f32⟩) main_call1.v5 main_call1.v13 (fun x i => Host.gather gather_S256x1x8_S4096x512x1_S4096x512x1x8_23_0_n_n_0_2_118 x i),
    StableHlo.TRef.unary main_call1.v12 main_call1.v14 (broadcastInDim S4096x512x1x8 ![0, 1] bcast_S4096x512_S4096x512x1x8_0_1),
    StableHlo.TRef.nullary main_call1.cst (constant S_ .f32 0x7FC00000#32),
    StableHlo.TRef.unary main_call1.cst main_call1.v15 (broadcastInDim S4096x512x1x8 ![] bcast_S_S4096x512x1x8),
    StableHlo.TRef.ternary main_call1.v14 main_call1.v13 main_call1.v15 main_call1.v16 select,
    StableHlo.binary main_v4 main_v9 main_v10 (addf : (⟨S4096x512x1x8, .f32⟩ : BufTy).Contents (Elt F) → (⟨S4096x512x1x8, .f32⟩ : BufTy).Contents (Elt F) → (⟨S4096x512x1x8, .f32⟩ : BufTy).Contents (Elt F)),
    StableHlo.unary main_arg3 main_v11 (broadcastInDim S4096x512x1x8 ![0, 1, 2, 3] bcast_S4096x1x1x1_S4096x512x1x8_0_1_2_3 : (⟨S4096x1x1x1, .f32⟩ : BufTy).Contents (Elt F) → (⟨S4096x512x1x8, .f32⟩ : BufTy).Contents (Elt F)),
    StableHlo.binary main_v10 main_v11 main_v12 (mulf : (⟨S4096x512x1x8, .f32⟩ : BufTy).Contents (Elt F) → (⟨S4096x512x1x8, .f32⟩ : BufTy).Contents (Elt F) → (⟨S4096x512x1x8, .f32⟩ : BufTy).Contents (Elt F)),
    StableHlo.unary main_v12 main_v13 ((transpose S4096x1x512x8 [0, 2, 1, 3] · transposes_S4096x512x1x8_S4096x1x512x8_0_2_1_3) : (⟨S4096x512x1x8, .f32⟩ : BufTy).Contents (Elt F) → (⟨S4096x1x512x8, .f32⟩ : BufTy).Contents (Elt F)),
    StableHlo.reshape main_v13 main_v14 rfl shapeCasts_S4096x1x512x8_S4096x4096,
    StableHlo.binary main_arg0 main_v14 main_v15 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    StableHlo.unary main_arg4 main_v16 (broadcastInDim S1x1x4096 ![2] bcast_S4096_S1x1x4096_2 : (⟨S4096, .f32⟩ : BufTy).Contents (Elt F) → (⟨S1x1x4096, .f32⟩ : BufTy).Contents (Elt F)),
    StableHlo.unary main_v16 main_v17 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v15 main_v17 main_v18 (addf : (⟨S4x2048x4096, .f32⟩ : BufTy).Contents (Elt F) → (⟨S4x2048x4096, .f32⟩ : BufTy).Contents (Elt F) → (⟨S4x2048x4096, .f32⟩ : BufTy).Contents (Elt F)),
    StableHlo.binary main_arg0 main_arg5 main_v19 ((fun l r => Host.dotGeneral dot_S4x2048x4096_S16x4096_S4x2048x16_2_1_01_0_n_n none l r) : (⟨S4x2048x4096, .f32⟩ : BufTy).Contents (Elt F) → (⟨S16x4096, .f32⟩ : BufTy).Contents (Elt F) → (⟨S4x2048x16, .f32⟩ : BufTy).Contents (Elt F)),
    StableHlo.binary main_v19 main_arg6 main_v20 ((fun l r => Host.dotGeneral dot_S4x2048x16_S4096x16_S4x2048x4096_2_1_01_0_n_n none l r) : (⟨S4x2048x16, .f32⟩ : BufTy).Contents (Elt F) → (⟨S4096x16, .f32⟩ : BufTy).Contents (Elt F) → (⟨S4x2048x4096, .f32⟩ : BufTy).Contents (Elt F)),
    StableHlo.nullary main_cst (constant S_ .f32 0x40000000#32),
    StableHlo.unary main_cst main_v21 (broadcastInDim S4x2048x4096 ![] bcast_S_S4x2048x4096 : (⟨S_, .f32⟩ : BufTy).Contents (Elt F) → (⟨S4x2048x4096, .f32⟩ : BufTy).Contents (Elt F)),
    StableHlo.binary main_v21 main_v20 main_v22 (mulf : (⟨S4x2048x4096, .f32⟩ : BufTy).Contents (Elt F) → (⟨S4x2048x4096, .f32⟩ : BufTy).Contents (Elt F) → (⟨S4x2048x4096, .f32⟩ : BufTy).Contents (Elt F)),
    StableHlo.binary main_v18 main_v22 main_v23 (addf : (⟨S4x2048x4096, .f32⟩ : BufTy).Contents (Elt F) → (⟨S4x2048x4096, .f32⟩ : BufTy).Contents (Elt F) → (⟨S4x2048x4096, .f32⟩ : BufTy).Contents (Elt F)) ]

-- sixty-nine statements deep: sequencing is unfolded once per statement
set_option maxRecDepth 100000 in
/-- The program is that straight line: each call is its callee's body over the call's buffers, and sequencing a block
    of statements before the rest is, by the definition of sequencing, the statements one after the other. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core that runs the program only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., unary_bufs_sub .., binary_bufs_sub .., unary_bufs_sub .., reshape_bufs_sub .., binary_bufs_sub ..,
    unary_bufs_sub .., unary_bufs_sub .., binary_bufs_sub .., binary_bufs_sub .., binary_bufs_sub .., nullary_bufs_sub ..,
    unary_bufs_sub .., binary_bufs_sub .., binary_bufs_sub ..⟩

/-- From any memory with all counters at zero every fair execution of the program ends, and each buffer then holds what
    the sixty-nine operations leave in it, starting from the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The last ten operations of the reference program as one function of five arrays.

  Once the dequantized weights are formed, the output is computed from them, the input, the bias and the low-rank pair:
  the weights are laid out as a 4096 × 4096 matrix (the unit axis moved out of the way, then groups and positions
  flattened into one input-feature axis), the input rows are contracted against it, the bias is spread over every row
  and added, the input rows are contracted against the first low-rank factor and the result against the second, that
  is scaled by two, and the two parts are added.
-/
import proofs.«149406_j5781025980674_2_alg».proof.Proof.Gen.ReferenceIdeal

noncomputable section

namespace Cert.ReferenceIdeal.RefValue

open Cert.ReferenceIdeal Cert.ReferenceIdeal.Facts₀ Idealize.ShloMosaic

variable {F : FTy → Type} [FloatOps F]

/-- The dequantized weights w4[o, g, 0, e] as the matrix with entry (o, 8g + e). -/
def weightMatrix (w : (⟨S4096x512x1x8, .f32⟩ : BufTy).Contents (Elt F)) : (⟨S4096x4096, .f32⟩ : BufTy).Contents (Elt F) :=
  shapeCast S4096x4096 (transpose S4096x1x512x8 [0, 2, 1, 3] w transposes_S4096x512x1x8_S4096x1x512x8_0_2_1_3)
    shapeCasts_S4096x1x512x8_S4096x4096

/-- The output as the program's last operations compute it from the input x, the dequantized weights w, the bias and
    the low-rank factors A and B. -/
def refTerm (x : (⟨S4x2048x4096, .f32⟩ : BufTy).Contents (Elt F)) (w : (⟨S4096x512x1x8, .f32⟩ : BufTy).Contents (Elt F))
    (bias : (⟨S4096, .f32⟩ : BufTy).Contents (Elt F)) (A : (⟨S16x4096, .f32⟩ : BufTy).Contents (Elt F))
    (B : (⟨S4096x16, .f32⟩ : BufTy).Contents (Elt F)) : (⟨S4x2048x4096, .f32⟩ : BufTy).Contents (Elt F) :=
  addf
    (addf (Host.dotGeneral dot_S4x2048x4096_S4096x4096_S4x2048x4096_2_1_01_0_n_n none x (weightMatrix w))
      (broadcastInDim S4x2048x4096 ![0, 1, 2] bcast_S1x1x4096_S4x2048x4096_0_1_2
        (broadcastInDim S1x1x4096 ![2] bcast_S4096_S1x1x4096_2 bias)))
    (mulf (broadcastInDim S4x2048x4096 ![] bcast_S_S4x2048x4096 (constant S_ .f32 0x40000000#32))
      (Host.dotGeneral dot_S4x2048x16_S4096x16_S4x2048x4096_2_1_01_0_n_n none
        (Host.dotGeneral dot_S4x2048x4096_S16x4096_S4x2048x16_2_1_01_0_n_n none x A) B))

end Cert.ReferenceIdeal.RefValue

end
-- ==== Proof.RefFold.lean ====
/-
  The result buffer of the reference program as a term of the seven argument buffers.

  The sixty-nine operations are taken in three consecutive parts.  After the first part (the first codebook and table
  cut out, and the first pick) the first pick's buffer holds the picked rows of the first codebook.  After the second
  part (the same for the second codebook and table, then the sum and the scaling) the buffer of the scaled sum holds the
  dequantized weights, given the first pick's buffer.  After the third part the output buffer holds the output function
  of the input, the dequantized weights, the bias and the low-rank pair.  No part writes an argument buffer.  Running
  a list of operations that is a concatenation is running the pieces in turn, so the three facts compose.
-/
import proofs.«149406_j5781025980674_2_alg».proof.Proof.RefRun
import proofs.«149406_j5781025980674_2_alg».proof.Proof.RefTerm
import proofs.«149406_j5781025980674_2_alg».proof.Proof.Dequant
import proofs.«149406_j5781025980674_2_alg».proof.Proof.LibTypedRefs

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F]

/-- Operations run in order: a concatenation is its first list, then its second from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first codebook and table cut out, and the first pick. -/
abbrev partA : List (HloOp τ sig (Elt F)) :=
  [ StableHlo.unary main_arg2 main_v0 ((extractStridedSlice S1x256x1x8 ![0, 0, 0, 0] · slices_S2x256x1x8_S1x256x1x8_0_0_0_0) : (⟨S2x256x1x8, .f32⟩ : BufTy).Contents (Elt F) → (⟨S1x256x1x8, .f32⟩ : BufTy).Contents (Elt F)),
    StableHlo.reshape main_v0 main_v1 rfl shapeCasts_S1x256x1x8_S256x1x8,
    StableHlo.unary main_arg1 main_v2 ((extractStridedSlice S4096x512x1 ![0, 0, 0] · slices_S4096x512x2_S4096x512x1_0_0_0) : (⟨S4096x512x2, .i32⟩ : BufTy).Contents (Elt F) → (⟨S4096x512x1, .i32⟩ : BufTy).Contents (Elt F)),
    StableHlo.reshape main_v2 main_v3 rfl shapeCasts_S4096x512x1_S4096x512,
    StableHlo.TRef.nullary main_call0.c (constantI S_ 32 0#32),
    StableHlo.TRef.unary main_call0.c main_call0.v0 (broadcastInDim S4096x512 ![] bcast_S_S4096x512),
    StableHlo.TRef.binary (.of main_v3 : StableHlo.TRef sig ⟨S4096x512, .i32⟩) main_call0.v0 main_call0.v1 (cmpi .slt),
    StableHlo.TRef.nullary main_call0.c_0 (constantI S_ 32 256#32),
    StableHlo.TRef.unary main_call0.c_0 main_call0.v2 (broadcastInDim S4096x512 ![] bcast_S_S4096x512),
    StableHlo.TRef.binary (.of main_v3 : StableHlo.TRef sig ⟨S4096x512, .i32⟩) main_call0.v2 main_call0.v3 addi,
    StableHlo.TRef.ternary main_call0.v1 main_call0.v3 (.of main_v3 : StableHlo.TRef sig ⟨S4096x512, .i32⟩) main_call0.call0.v0 select,
    StableHlo.TRef.unary main_call0.call0.v0 main_call0.v5 (broadcastInDim S4096x512x1 ![0, 1] bcast_S4096x512_S4096x512x1_0_1),
    StableHlo.TRef.nullary main_call0.c_1 (constantI S1 32 255#32),
    StableHlo.TRef.nullary main_call0.c_2 (constantI S_ 32 0#32),
    StableHlo.TRef.unary main_call0.c_2 main_call0.v6 (broadcastInDim S4096x512x1 ![] bcast_S_S4096x512x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4096x512x1 ![0, 1, 2] bcast_S1x1x1_S4096x512x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x512x1_S4096x512_d2 h_S_),
    StableHlo.TRef.binary (.of main_v1 : StableHlo.TRef sig ⟨S256x1x8, .f32⟩) main_call0.v5 main_call0.v13 (fun x i => Host.gather gather_S256x1x8_S4096x512x1_S4096x512x1x8_23_0_n_n_0_2_118 x i),
    StableHlo.TRef.unary main_call0.v12 main_call0.v14 (broadcastInDim S4096x512x1x8 ![0, 1] bcast_S4096x512_S4096x512x1x8_0_1),
    StableHlo.TRef.nullary main_call0.cst (constant S_ .f32 0x7FC00000#32),
    StableHlo.TRef.unary main_call0.cst main_call0.v15 (broadcastInDim S4096x512x1x8 ![] bcast_S_S4096x512x1x8),
    StableHlo.TRef.ternary main_call0.v14 main_call0.v13 main_call0.v15 main_call0.v16 select ]

/-- The second codebook and table cut out, the second pick, and the sum of the two picks scaled. -/
abbrev partB : List (HloOp τ sig (Elt F)) :=
  [ StableHlo.unary main_arg2 main_v5 ((extractStridedSlice S1x256x1x8 ![1, 0, 0, 0] · slices_S2x256x1x8_S1x256x1x8_1_0_0_0) : (⟨S2x256x1x8, .f32⟩ : BufTy).Contents (Elt F) → (⟨S1x256x1x8, .f32⟩ : BufTy).Contents (Elt F)),
    StableHlo.reshape main_v5 main_v6 rfl shapeCasts_S1x256x1x8_S256x1x8,
    StableHlo.unary main_arg1 main_v7 ((extractStridedSlice S4096x512x1 ![0, 0, 1] · slices_S4096x512x2_S4096x512x1_0_0_1) : (⟨S4096x512x2, .i32⟩ : BufTy).Contents (Elt F) → (⟨S4096x512x1, .i32⟩ : BufTy).Contents (Elt F)),
    StableHlo.reshape main_v7 main_v8 rfl shapeCasts_S4096x512x1_S4096x512,
    StableHlo.TRef.nullary main_call1.c (constantI S_ 32 0#32),
    StableHlo.TRef.unary main_call1.c main_call1.v0 (broadcastInDim S4096x512 ![] bcast_S_S4096x512),
    StableHlo.TRef.binary (.of main_v8 : StableHlo.TRef sig ⟨S4096x512, .i32⟩) main_call1.v0 main_call1.v1 (cmpi .slt),
    StableHlo.TRef.nullary main_call1.c_0 (constantI S_ 32 256#32),
    StableHlo.TRef.unary main_call1.c_0 main_call1.v2 (broadcastInDim S4096x512 ![] bcast_S_S4096x512),
    StableHlo.TRef.binary (.of main_v8 : StableHlo.TRef sig ⟨S4096x512, .i32⟩) main_call1.v2 main_call1.v3 addi,
    StableHlo.TRef.ternary main_call1.v1 main_call1.v3 (.of main_v8 : StableHlo.TRef sig ⟨S4096x512, .i32⟩) main_call1.call0.v0 select,
    StableHlo.TRef.unary main_call1.call0.v0 main_call1.v5 (broadcastInDim S4096x512x1 ![0, 1] bcast_S4096x512_S4096x512x1_0_1),
    StableHlo.TRef.nullary main_call1.c_1 (constantI S1 32 255#32),
    StableHlo.TRef.nullary main_call1.c_2 (constantI S_ 32 0#32),
    StableHlo.TRef.unary main_call1.c_2 main_call1.v6 (broadcastInDim S4096x512x1 ![] bcast_S_S4096x512x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S4096x512x1 ![0, 1, 2] bcast_S1x1x1_S4096x512x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4096x512x1_S4096x512_d2 h_S_),
    StableHlo.TRef.binary (.of main_v6 : StableHlo.TRef sig ⟨S256x1x8, .f32⟩) main_call1.v5 main_call1.v13 (fun x i => Host.gather gather_S256x1x8_S4096x512x1_S4096x512x1x8_23_0_n_n_0_2_118 x i),
    StableHlo.TRef.unary main_call1.v12 main_call1.v14 (broadcastInDim S4096x512x1x8 ![0, 1] bcast_S4096x512_S4096x512x1x8_0_1),
    StableHlo.TRef.nullary main_call1.cst (constant S_ .f32 0x7FC00000#32),
    StableHlo.TRef.unary main_call1.cst main_call1.v15 (broadcastInDim S4096x512x1x8 ![] bcast_S_S4096x512x1x8),
    StableHlo.TRef.ternary main_call1.v14 main_call1.v13 main_call1.v15 main_call1.v16 select,
    StableHlo.binary main_v4 main_v9 main_v10 (addf : (⟨S4096x512x1x8, .f32⟩ : BufTy).Contents (Elt F) → (⟨S4096x512x1x8, .f32⟩ : BufTy).Contents (Elt F) → (⟨S4096x512x1x8, .f32⟩ : BufTy).Contents (Elt F)),
    StableHlo.unary main_arg3 main_v11 (broadcastInDim S4096x512x1x8 ![0, 1, 2, 3] bcast_S4096x1x1x1_S4096x512x1x8_0_1_2_3 : (⟨S4096x1x1x1, .f32⟩ : BufTy).Contents (Elt F) → (⟨S4096x512x1x8, .f32⟩ : BufTy).Contents (Elt F)),
    StableHlo.binary main_v10 main_v11 main_v12 (mulf : (⟨S4096x512x1x8, .f32⟩ : BufTy).Contents (Elt F) → (⟨S4096x512x1x8, .f32⟩ : BufTy).Contents (Elt F) → (⟨S4096x512x1x8, .f32⟩ : BufTy).Contents (Elt F)) ]

/-- The output formed from the dequantized weights, the input, the bias and the low-rank pair. -/
abbrev partC : List (HloOp τ sig (Elt F)) :=
  [ StableHlo.unary main_v12 main_v13 ((transpose S4096x1x512x8 [0, 2, 1, 3] · transposes_S4096x512x1x8_S4096x1x512x8_0_2_1_3) : (⟨S4096x512x1x8, .f32⟩ : BufTy).Contents (Elt F) → (⟨S4096x1x512x8, .f32⟩ : BufTy).Contents (Elt F)),
    StableHlo.reshape main_v13 main_v14 rfl shapeCasts_S4096x1x512x8_S4096x4096,
    StableHlo.binary main_arg0 main_v14 main_v15 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    StableHlo.unary main_arg4 main_v16 (broadcastInDim S1x1x4096 ![2] bcast_S4096_S1x1x4096_2 : (⟨S4096, .f32⟩ : BufTy).Contents (Elt F) → (⟨S1x1x4096, .f32⟩ : BufTy).Contents (Elt F)),
    StableHlo.unary main_v16 main_v17 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v15 main_v17 main_v18 (addf : (⟨S4x2048x4096, .f32⟩ : BufTy).Contents (Elt F) → (⟨S4x2048x4096, .f32⟩ : BufTy).Contents (Elt F) → (⟨S4x2048x4096, .f32⟩ : BufTy).Contents (Elt F)),
    StableHlo.binary main_arg0 main_arg5 main_v19 ((fun l r => Host.dotGeneral dot_S4x2048x4096_S16x4096_S4x2048x16_2_1_01_0_n_n none l r) : (⟨S4x2048x4096, .f32⟩ : BufTy).Contents (Elt F) → (⟨S16x4096, .f32⟩ : BufTy).Contents (Elt F) → (⟨S4x2048x16, .f32⟩ : BufTy).Contents (Elt F)),
    StableHlo.binary main_v19 main_arg6 main_v20 ((fun l r => Host.dotGeneral dot_S4x2048x16_S4096x16_S4x2048x4096_2_1_01_0_n_n none l r) : (⟨S4x2048x16, .f32⟩ : BufTy).Contents (Elt F) → (⟨S4096x16, .f32⟩ : BufTy).Contents (Elt F) → (⟨S4x2048x4096, .f32⟩ : BufTy).Contents (Elt F)),
    StableHlo.nullary main_cst (constant S_ .f32 0x40000000#32),
    StableHlo.unary main_cst main_v21 (broadcastInDim S4x2048x4096 ![] bcast_S_S4x2048x4096 : (⟨S_, .f32⟩ : BufTy).Contents (Elt F) → (⟨S4x2048x4096, .f32⟩ : BufTy).Contents (Elt F)),
    StableHlo.binary main_v21 main_v20 main_v22 (mulf : (⟨S4x2048x4096, .f32⟩ : BufTy).Contents (Elt F) → (⟨S4x2048x4096, .f32⟩ : BufTy).Contents (Elt F) → (⟨S4x2048x4096, .f32⟩ : BufTy).Contents (Elt F)),
    StableHlo.binary main_v18 main_v22 main_v23 (addf : (⟨S4x2048x4096, .f32⟩ : BufTy).Contents (Elt F) → (⟨S4x2048x4096, .f32⟩ : BufTy).Contents (Elt F) → (⟨S4x2048x4096, .f32⟩ : BufTy).Contents (Elt F)) ]

/-- The three parts, in order, are the whole program. -/
theorem ops_split : (ops : List (HloOp τ sig (Elt F))) = partA ++ (partB ++ partC) := rfl

/-! ## What each part leaves in the buffer it is there to fill -/

set_option maxRecDepth 8192 in
set_option maxHeartbeats 1600000 in
/-- After the first part the first pick's buffer, read at its value type, holds the rows of the first codebook picked
    by the first table of row numbers. -/
theorem partA_v4' (V : Valuation τ sig (Elt F)) :
    (.of main_v4 : TRef sig ⟨S4096x512x1x8, .f32⟩).ofBuf (after partA V (main_v4 : DevRef τ sig))
      = Cert.Dequant.takeRows (shapeCast S256x1x8 (extractStridedSlice S1x256x1x8 ![0, 0, 0, 0] (V (main_arg2 : DevRef τ sig)) slices_S2x256x1x8_S1x256x1x8_0_0_0_0) shapeCasts_S1x256x1x8_S256x1x8) (shapeCast S4096x512 (extractStridedSlice S4096x512x1 ![0, 0, 0] (V (main_arg1 : DevRef τ sig)) slices_S4096x512x2_S4096x512x1_0_0_0) shapeCasts_S4096x512x1_S4096x512) := by
  after_results_simp
  simp only [Cert.LibTypedRefs.ofBuf_toBuf]
  unfold Cert.Dequant.takeRows
  rfl

/-- Reading the first pick's buffer at its value type changes nothing: the buffer is declared with that type. -/
theorem ofBuf_v4 (v : ((main_v4 : Ref sig .tc) : DevRef τ sig).ty.Contents (Elt F)) :
    (.of main_v4 : TRef sig ⟨S4096x512x1x8, .f32⟩).ofBuf v = v := rfl

/-- After the first part the first pick's buffer holds the rows of the first codebook picked by the first table. -/
theorem partA_v4 (V : Valuation τ sig (Elt F)) :
    after partA V (main_v4 : DevRef τ sig) = Cert.Dequant.takeRows (shapeCast S256x1x8 (extractStridedSlice S1x256x1x8 ![0, 0, 0, 0] (V (main_arg2 : DevRef τ sig)) slices_S2x256x1x8_S1x256x1x8_0_0_0_0) shapeCasts_S1x256x1x8_S256x1x8) (shapeCast S4096x512 (extractStridedSlice S4096x512x1 ![0, 0, 0] (V (main_arg1 : DevRef τ sig)) slices_S4096x512x2_S4096x512x1_0_0_0) shapeCasts_S4096x512x1_S4096x512) :=
  (ofBuf_v4 _).symm.trans (partA_v4' V)

/-- Writing the second pick's buffer from its value type changes nothing: the buffer is declared with that type. -/
theorem toBuf_v9 (v : (⟨S4096x512x1x8, .f32⟩ : BufTy).Contents (Elt F)) :
    (.of main_v9 : TRef sig ⟨S4096x512x1x8, .f32⟩).toBuf v = v := rfl

set_option maxRecDepth 8192 in
set_option maxHeartbeats 1600000 in
/-- After the second part the buffer of the scaled sum holds: what the first pick's buffer held, plus the rows of the
    second codebook picked by the second table, times the scales spread over groups and positions. -/
theorem partB_v12 (W : Valuation τ sig (Elt F)) :
    after partB W (main_v12 : DevRef τ sig)
      = mulf (addf (W (main_v4 : DevRef τ sig)) (Cert.Dequant.takeRows (shapeCast S256x1x8 (extractStridedSlice S1x256x1x8 ![1, 0, 0, 0] (W (main_arg2 : DevRef τ sig)) slices_S2x256x1x8_S1x256x1x8_1_0_0_0) shapeCasts_S1x256x1x8_S256x1x8) (shapeCast S4096x512 (extractStridedSlice S4096x512x1 ![0, 0, 1] (W (main_arg1 : DevRef τ sig)) slices_S4096x512x2_S4096x512x1_0_0_1) shapeCasts_S4096x512x1_S4096x512)))
          (broadcastInDim S4096x512x1x8 ![0, 1, 2, 3] bcast_S4096x1x1x1_S4096x512x1x8_0_1_2_3 (W (main_arg3 : DevRef τ sig))) := by
  after_results_simp
  simp only [Cert.LibTypedRefs.ofBuf_toBuf, toBuf_v9]
  unfold Cert.Dequant.takeRows
  rfl

set_option maxRecDepth 8192 in
/-- After the third part the output buffer holds the output function of the input, the scaled sum's buffer, the bias
    and the low-rank pair. -/
theorem partC_v23 (W : Valuation τ sig (Elt F)) :
    after partC W (main_v23 : DevRef τ sig)
      = refTerm (W (main_arg0 : DevRef τ sig)) (W (main_v12 : DevRef τ sig)) (W (main_arg4 : DevRef τ sig))
          (W (main_arg5 : DevRef τ sig)) (W (main_arg6 : DevRef τ sig)) := by
  after_results_simp
  rfl

/-! ## No part writes an argument buffer -/

theorem partA_arg0 (W : Valuation τ sig (Elt F)) :
    after partA W (main_arg0 : DevRef τ sig) = W (main_arg0 : DevRef τ sig) := by after_results_simp
theorem partA_arg1 (W : Valuation τ sig (Elt F)) :
    after partA W (main_arg1 : DevRef τ sig) = W (main_arg1 : DevRef τ sig) := by after_results_simp
theorem partA_arg2 (W : Valuation τ sig (Elt F)) :
    after partA W (main_arg2 : DevRef τ sig) = W (main_arg2 : DevRef τ sig) := by after_results_simp
theorem partA_arg3 (W : Valuation τ sig (Elt F)) :
    after partA W (main_arg3 : DevRef τ sig) = W (main_arg3 : DevRef τ sig) := by after_results_simp
theorem partA_arg4 (W : Valuation τ sig (Elt F)) :
    after partA W (main_arg4 : DevRef τ sig) = W (main_arg4 : DevRef τ sig) := by after_results_simp
theorem partA_arg5 (W : Valuation τ sig (Elt F)) :
    after partA W (main_arg5 : DevRef τ sig) = W (main_arg5 : DevRef τ sig) := by after_results_simp
theorem partA_arg6 (W : Valuation τ sig (Elt F)) :
    after partA W (main_arg6 : DevRef τ sig) = W (main_arg6 : DevRef τ sig) := by after_results_simp

theorem partB_arg0 (W : Valuation τ sig (Elt F)) :
    after partB W (main_arg0 : DevRef τ sig) = W (main_arg0 : DevRef τ sig) := by after_results_simp
theorem partB_arg1 (W : Valuation τ sig (Elt F)) :
    after partB W (main_arg1 : DevRef τ sig) = W (main_arg1 : DevRef τ sig) := by after_results_simp
theorem partB_arg2 (W : Valuation τ sig (Elt F)) :
    after partB W (main_arg2 : DevRef τ sig) = W (main_arg2 : DevRef τ sig) := by after_results_simp
theorem partB_arg3 (W : Valuation τ sig (Elt F)) :
    after partB W (main_arg3 : DevRef τ sig) = W (main_arg3 : DevRef τ sig) := by after_results_simp
theorem partB_arg4 (W : Valuation τ sig (Elt F)) :
    after partB W (main_arg4 : DevRef τ sig) = W (main_arg4 : DevRef τ sig) := by after_results_simp
theorem partB_arg5 (W : Valuation τ sig (Elt F)) :
    after partB W (main_arg5 : DevRef τ sig) = W (main_arg5 : DevRef τ sig) := by after_results_simp
theorem partB_arg6 (W : Valuation τ sig (Elt F)) :
    after partB W (main_arg6 : DevRef τ sig) = W (main_arg6 : DevRef τ sig) := by after_results_simp

theorem partC_arg0 (W : Valuation τ sig (Elt F)) :
    after partC W (main_arg0 : DevRef τ sig) = W (main_arg0 : DevRef τ sig) := by after_results_simp
theorem partC_arg1 (W : Valuation τ sig (Elt F)) :
    after partC W (main_arg1 : DevRef τ sig) = W (main_arg1 : DevRef τ sig) := by after_results_simp
theorem partC_arg2 (W : Valuation τ sig (Elt F)) :
    after partC W (main_arg2 : DevRef τ sig) = W (main_arg2 : DevRef τ sig) := by after_results_simp
theorem partC_arg3 (W : Valuation τ sig (Elt F)) :
    after partC W (main_arg3 : DevRef τ sig) = W (main_arg3 : DevRef τ sig) := by after_results_simp
theorem partC_arg4 (W : Valuation τ sig (Elt F)) :
    after partC W (main_arg4 : DevRef τ sig) = W (main_arg4 : DevRef τ sig) := by after_results_simp
theorem partC_arg5 (W : Valuation τ sig (Elt F)) :
    after partC W (main_arg5 : DevRef τ sig) = W (main_arg5 : DevRef τ sig) := by after_results_simp
theorem partC_arg6 (W : Valuation τ sig (Elt F)) :
    after partC W (main_arg6 : DevRef τ sig) = W (main_arg6 : DevRef τ sig) := by after_results_simp

/-! ## The whole program -/

/-- After the whole program the output buffer holds the output function of the input, the dequantized weights of the
    three quantization arguments, the bias and the low-rank pair. -/
theorem out_eq (V : Valuation τ sig (Elt F)) :
    after ops V (main_v23 : DevRef τ sig)
      = refTerm (V (main_arg0 : DevRef τ sig))
          (Cert.Dequant.w4 (V (main_arg1 : DevRef τ sig)) (V (main_arg2 : DevRef τ sig)) (V (main_arg3 : DevRef τ sig)))
          (V (main_arg4 : DevRef τ sig)) (V (main_arg5 : DevRef τ sig)) (V (main_arg6 : DevRef τ sig)) := by
  rw [ops_split, after_append, after_append, partC_v23, partB_v12, partB_arg0, partB_arg4, partB_arg5, partB_arg6,
    partA_v4, partA_arg0, partA_arg1, partA_arg2, partA_arg3, partA_arg4, partA_arg5, partA_arg6]
  rfl

/-- The whole program leaves argument 0 as it was. -/
theorem arg0_eq (V : Valuation τ sig (Elt F)) :
    after ops V (main_arg0 : DevRef τ sig) = V (main_arg0 : DevRef τ sig) := by
  rw [ops_split, after_append, after_append, partC_arg0, partB_arg0, partA_arg0]

/-- The whole program leaves argument 1 as it was. -/
theorem arg1_eq (V : Valuation τ sig (Elt F)) :
    after ops V (main_arg1 : DevRef τ sig) = V (main_arg1 : DevRef τ sig) := by
  rw [ops_split, after_append, after_append, partC_arg1, partB_arg1, partA_arg1]

/-- The whole program leaves argument 2 as it was. -/
theorem arg2_eq (V : Valuation τ sig (Elt F)) :
    after ops V (main_arg2 : DevRef τ sig) = V (main_arg2 : DevRef τ sig) := by
  rw [ops_split, after_append, after_append, partC_arg2, partB_arg2, partA_arg2]

/-- The whole program leaves argument 3 as it was. -/
theorem arg3_eq (V : Valuation τ sig (Elt F)) :
    after ops V (main_arg3 : DevRef τ sig) = V (main_arg3 : DevRef τ sig) := by
  rw [ops_split, after_append, after_append, partC_arg3, partB_arg3, partA_arg3]

/-- The whole program leaves argument 4 as it was. -/
theorem arg4_eq (V : Valuation τ sig (Elt F)) :
    after ops V (main_arg4 : DevRef τ sig) = V (main_arg4 : DevRef τ sig) := by
  rw [ops_split, after_append, after_append, partC_arg4, partB_arg4, partA_arg4]

/-- The whole program leaves argument 5 as it was. -/
theorem arg5_eq (V : Valuation τ sig (Elt F)) :
    after ops V (main_arg5 : DevRef τ sig) = V (main_arg5 : DevRef τ sig) := by
  rw [ops_split, after_append, after_append, partC_arg5, partB_arg5, partA_arg5]

/-- The whole program leaves argument 6 as it was. -/
theorem arg6_eq (V : Valuation τ sig (Elt F)) :
    after ops V (main_arg6 : DevRef τ sig) = V (main_arg6 : DevRef τ sig) := by
  rw [ops_split, after_append, after_append, partC_arg6, partB_arg6, partA_arg6]

end Cert.ReferenceIdeal.RefValue

end
-- ==== Proof.LibBatchedRowDot.lean ====
/-
  A batch of rows against the rows of a matrix, read at one entry.

  A contraction with the dimension numbers of "the last axis of an [n₀, n₁, k] array against the last axis of a [d, k]
  matrix" (contract axis 2 of the left with axis 1 of the right, no batch axis, the result laid out [n₀, n₁, d]) sums, at
  entry (p, q, o), the products of the row (p, q) of the left operand with row o of the right: the sum over j of
  lhs(p, q, j) · rhs(o, j).  This holds for any record of those dimension numbers, whatever its extents and formats, and
  gives the reading of the host's dot_general on the extended reals.
-/
import Idealize.ShloMosaic.PureOps.Ideal.Laws
import Idealize.ShloMosaic.Lib.ValueIdx

noncomputable section

namespace Cert.LibBatchedRowDot

open Idealize.ShloMosaic Idealize.ShloMosaic.ValueIdx

/-- The sum over the contraction index is the sum over the one contracted coordinate j, the left operand read at
    (p, q, j) and the right at (o, j). -/
theorem sum_contr_rows {n₀ n₁ k d : ℕ} (D : DotDims ⟨3, ![n₀, n₁, k]⟩ ⟨2, ![d, k]⟩ ⟨3, ![n₀, n₁, d]⟩)
    (hlc : D.lhsContracting = [2]) (hrc : D.rhsContracting = [1]) (hln : D.lhsNonContracting = [0, 1]) (hrn : D.rhsNonContracting = [0])
    (hlb : D.lhsBatch = []) (hrb : D.rhsBatch = [])
    (lhs : (⟨3, ![n₀, n₁, k]⟩ : Shape).Idx → EReal) (rhs : (⟨2, ![d, k]⟩ : Shape).Idx → EReal) (p : Fin n₀) (q : Fin n₁) (o : Fin d) :
    ∑ c : D.contr.Idx, lhs (D.lhsIdx (ix3 p q o) c) * rhs (D.rhsIdx (ix3 p q o) c) = ∑ j : Fin k, lhs (ix3 p q j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [2] [1] [0, 1] [0] [] [] wf) k rfl rfl).symm]
  refine Finset.sum_congr rfl fun j _ => ?_
  have hk := contrEquiv1_symm_val (DotDims.mk [2] [1] [0, 1] [0] [] [] wf) k rfl rfl j
  have el : (DotDims.mk [2] [1] [0, 1] [0] [] [] wf).lhsIdx (ix3 p q o) ((contrEquiv1 (DotDims.mk [2] [1] [0, 1] [0] [] [] wf) k rfl rfl).symm j) = ix3 p q j :=
    funext fun a => Fin.ext (by
      match a with
      | ⟨0, _⟩ => rfl
      | ⟨1, _⟩ => rfl
      | ⟨2, _⟩ => exact ((DotDims.mk [2] [1] [0, 1] [0] [] [] wf).lhsIdx_val_of_single rfl _ _).trans hk)
  have er : (DotDims.mk [2] [1] [0, 1] [0] [] [] wf).rhsIdx (ix3 p q o) ((contrEquiv1 (DotDims.mk [2] [1] [0, 1] [0] [] [] wf) k rfl rfl).symm j) = ix2 o j :=
    funext fun a => Fin.ext (by
      match a with
      | ⟨0, _⟩ => rfl
      | ⟨1, _⟩ => exact ((DotDims.mk [2] [1] [0, 1] [0] [] [] wf).rhsIdx_val_of_single rfl _ _).trans hk)
  rw [el, er]

/-- The host's dot_general, at (p, q, o). -/
theorem dotGeneral_apply {n₀ n₁ k d : ℕ} {φ₁ φ₂ : FTy} (D : DotDims ⟨3, ![n₀, n₁, k]⟩ ⟨2, ![d, k]⟩ ⟨3, ![n₀, n₁, d]⟩)
    (hlc : D.lhsContracting = [2]) (hrc : D.rhsContracting = [1]) (hln : D.lhsNonContracting = [0, 1]) (hrn : D.rhsNonContracting = [0])
    (hlb : D.lhsBatch = []) (hrb : D.rhsBatch = []) (prec : Option ContractPrecision) (sched : HostSchedule)
    (lhs : FVec Ideal ⟨3, ![n₀, n₁, k]⟩ φ₁) (rhs : FVec Ideal ⟨2, ![d, k]⟩ φ₂) (p : Fin n₀) (q : Fin n₁) (o : Fin d) :
    FloatOps.dotGeneral D prec sched lhs rhs (ix3 p q o) = ∑ j : Fin k, lhs (ix3 p q j) * rhs (ix2 o j) :=
  (Ideal.dotGeneral_apply D prec sched lhs rhs (ix3 p q o)).trans (sum_contr_rows D hlc hrc hln hrn hlb hrb lhs rhs p q o)

end Cert.LibBatchedRowDot

end
-- ==== Proof.RefAt.lean ====
/-
  The reference's output function read at one entry, on the extended reals.

  Entry (b, s, o) of the output is read off operation by operation.  The weight matrix at (o, l) is the dequantized
  weight of group l / 8 and position l % 8, because flattening [1, 512, 8] row-major sends (0, g, e) to 8g + e.  Each
  contraction at an entry is the sum of products along the contracted axis.  The bias spread over the rows is, at
  (b, s, o), the bias of output feature o, and the constant spread over the whole array is the number two everywhere.
  Put together the entry is exactly the specification's, with the same bracketing and the same order of factors.
-/
import proofs.«149406_j5781025980674_2_alg».proof.Proof.RefTerm
import proofs.«149406_j5781025980674_2_alg».proof.Proof.Spec
import proofs.«149406_j5781025980674_2_alg».proof.Proof.LibBatchedRowDot
import Idealize.ShloMosaic.Lib.Pipeline.Value

noncomputable section

open scoped BigOperators

namespace Cert.ReferenceIdeal.RefValue

open Cert.ReferenceIdeal Cert.ReferenceIdeal.Facts₀ Idealize.ShloMosaic Idealize.ShloMosaic.ValueIdx

/-- The weight matrix at (o, l) is the dequantized weight joining output feature o and input feature l. -/
theorem weightMatrix_apply (w : (⟨4, ![4096, 512, 1, 8]⟩ : Shape).Idx → EReal) (o l : Fin 4096) :
    weightMatrix (F := Ideal) w (ix2 o l) = Cert.Spec.wAt w o l := by
  unfold weightMatrix
  refine (shapeCast_apply _ _ (ix2 o l) (ix4 o (0 : Fin 1) (Cert.Spec.grp l) (Cert.Spec.pos l)) ?_).trans ?_
  · rw [Shape.rowMajor_val_four, Shape.rowMajor_val_two]
    show ((o.val * 1 + 0) * 512 + l.val / 8) * 8 + l.val % 8 = o.val * 4096 + l.val
    omega
  · exact transpose_apply _ w _ (ix4 o (0 : Fin 1) (Cert.Spec.grp l) (Cert.Spec.pos l))
      (ix4 o (Cert.Spec.grp l) (0 : Fin 1) (Cert.Spec.pos l))
      (fun a => match a with | ⟨0, _⟩ => rfl | ⟨1, _⟩ => rfl | ⟨2, _⟩ => rfl | ⟨3, _⟩ => rfl)

/-- The input rows against the weight matrix, at (b, s, o). -/
theorem dotWeights_apply (x : (⟨3, ![4, 2048, 4096]⟩ : Shape).Idx → EReal) (w : (⟨4, ![4096, 512, 1, 8]⟩ : Shape).Idx → EReal)
    (b : Fin 4) (s : Fin 2048) (o : Fin 4096) :
    Host.dotGeneral (F := Ideal) (φ₁ := .f32) (φ₂ := .f32) dot_S4x2048x4096_S4096x4096_S4x2048x4096_2_1_01_0_n_n none x (weightMatrix (F := Ideal) w) (ix3 b s o)
      = ∑ l : Fin 4096, x (ix3 b s l) * Cert.Spec.wAt w o l :=
  (Cert.LibBatchedRowDot.dotGeneral_apply (φ₁ := .f32) (φ₂ := .f32) dot_S4x2048x4096_S4096x4096_S4x2048x4096_2_1_01_0_n_n rfl rfl rfl rfl rfl rfl none .single x
      (weightMatrix (F := Ideal) w) b s o).trans
    (Finset.sum_congr rfl fun l _ => congrArg (x (ix3 b s l) * ·) (weightMatrix_apply w o l))

/-- The input rows against the first low-rank factor, at (b, s, r). -/
theorem dotA_apply (x : (⟨3, ![4, 2048, 4096]⟩ : Shape).Idx → EReal) (A : (⟨2, ![16, 4096]⟩ : Shape).Idx → EReal)
    (b : Fin 4) (s : Fin 2048) (r : Fin 16) :
    Host.dotGeneral (F := Ideal) (φ₁ := .f32) (φ₂ := .f32) dot_S4x2048x4096_S16x4096_S4x2048x16_2_1_01_0_n_n none x A (ix3 b s r) = Cert.Spec.xaAt x A b s r :=
  Cert.LibBatchedRowDot.dotGeneral_apply (φ₁ := .f32) (φ₂ := .f32) dot_S4x2048x4096_S16x4096_S4x2048x16_2_1_01_0_n_n rfl rfl rfl rfl rfl rfl none .single x A b s r

/-- The low-rank correction before scaling, at (b, s, o). -/
theorem lowRank_apply (x : (⟨3, ![4, 2048, 4096]⟩ : Shape).Idx → EReal) (A : (⟨2, ![16, 4096]⟩ : Shape).Idx → EReal)
    (B : (⟨2, ![4096, 16]⟩ : Shape).Idx → EReal) (b : Fin 4) (s : Fin 2048) (o : Fin 4096) :
    Host.dotGeneral (F := Ideal) (φ₁ := .f32) (φ₂ := .f32) dot_S4x2048x16_S4096x16_S4x2048x4096_2_1_01_0_n_n none
        (Host.dotGeneral (F := Ideal) (φ₁ := .f32) (φ₂ := .f32) dot_S4x2048x4096_S16x4096_S4x2048x16_2_1_01_0_n_n none x A) B (ix3 b s o)
      = ∑ r : Fin 16, Cert.Spec.xaAt x A b s r * B (ix2 o r) :=
  (Cert.LibBatchedRowDot.dotGeneral_apply (φ₁ := .f32) (φ₂ := .f32) dot_S4x2048x16_S4096x16_S4x2048x4096_2_1_01_0_n_n rfl rfl rfl rfl rfl rfl none .single
      (Host.dotGeneral (F := Ideal) (φ₁ := .f32) (φ₂ := .f32) dot_S4x2048x4096_S16x4096_S4x2048x16_2_1_01_0_n_n none x A) B b s o).trans
    (Finset.sum_congr rfl fun r _ => congrArg (· * B (ix2 o r)) (dotA_apply x A b s r))

/-- The bias spread over every row is, at (b, s, o), the bias of output feature o. -/
theorem biasRows_apply (bias : (⟨1, ![4096]⟩ : Shape).Idx → EReal) (b : Fin 4) (s : Fin 2048) (o : Fin 4096) :
    broadcastInDim S4x2048x4096 ![0, 1, 2] bcast_S1x1x4096_S4x2048x4096_0_1_2
        (broadcastInDim S1x1x4096 ![2] bcast_S4096_S1x1x4096_2 bias) (ix3 b s o) = bias (ix1 o) :=
  (broadcastInDim_apply _ _ _ (ix3 b s o) (ix3 (0 : Fin 1) (0 : Fin 1) o)
      (fun a => match a with | ⟨0, _⟩ => rfl | ⟨1, _⟩ => rfl | ⟨2, _⟩ => rfl)).trans
    (broadcastInDim_apply _ _ bias (ix3 (0 : Fin 1) (0 : Fin 1) o) (ix1 o) (fun a => match a with | ⟨0, _⟩ => rfl))

/-- The scaling constant spread over the whole array is the number two at every entry. -/
theorem twoSplat_apply (i : (⟨3, ![4, 2048, 4096]⟩ : Shape).Idx) :
    broadcastInDim S4x2048x4096 ![] bcast_S_S4x2048x4096 (constant (F := Ideal) S_ .f32 0x40000000#32) i = Cert.Spec.two :=
  broadcastInDim_apply _ _ _ i ix0 (fun a => a.elim0)

/-- Entry (b, s, o) of the reference's output function is the specification's. -/
theorem refTerm_apply (x : (⟨3, ![4, 2048, 4096]⟩ : Shape).Idx → EReal) (w : (⟨4, ![4096, 512, 1, 8]⟩ : Shape).Idx → EReal)
    (bias : (⟨1, ![4096]⟩ : Shape).Idx → EReal) (A : (⟨2, ![16, 4096]⟩ : Shape).Idx → EReal)
    (B : (⟨2, ![4096, 16]⟩ : Shape).Idx → EReal) (b : Fin 4) (s : Fin 2048) (o : Fin 4096) :
    refTerm (F := Ideal) x w bias A B (ix3 b s o) = Cert.Spec.outAt x w bias A B b s o := by
  unfold refTerm Cert.Spec.outAt
  exact congrArg₂ (· + ·)
    (congrArg₂ (· + ·) (dotWeights_apply x w b s o) (biasRows_apply bias b s o))
    (congrArg₂ (· * ·) (twoSplat_apply (ix3 b s o)) (lowRank_apply x A B b s o))

/-- The reference's output function is the specification's output array. -/
theorem refTerm_eq_out (x : (⟨3, ![4, 2048, 4096]⟩ : Shape).Idx → EReal) (w : (⟨4, ![4096, 512, 1, 8]⟩ : Shape).Idx → EReal)
    (bias : (⟨1, ![4096]⟩ : Shape).Idx → EReal) (A : (⟨2, ![16, 4096]⟩ : Shape).Idx → EReal)
    (B : (⟨2, ![4096, 16]⟩ : Shape).Idx → EReal) :
    refTerm (F := Ideal) x w bias A B = Cert.Spec.out x w bias A B := by
  funext i
  obtain ⟨b, s, o, rfl⟩ : ∃ (b : Fin 4) (s : Fin 2048) (o : Fin 4096), i = ix3 b s o := ⟨i 0, i 1, i 2, eq_ix3 i⟩
  exact refTerm_apply x w bias A B b s o

end Cert.ReferenceIdeal.RefValue

end
-- ==== Proof.RefValue.lean ====
/-
  The reference program's run, stated against the specification.

  Every execution of the reference program ends with the output buffer holding the specification's output array of
  the input, the dequantized weights of the three quantization arguments, the bias and the low-rank pair, and with the
  seven argument buffers as they were at the start.  This puts together three facts: each buffer ends at what the
  program's operations, applied in order, leave in it; what they leave in the output buffer is the output function of
  the five arrays; and that function is, entry by entry, the specification's.
-/
import proofs.«149406_j5781025980674_2_alg».proof.Proof.RefFold
import proofs.«149406_j5781025980674_2_alg».proof.Proof.RefAt

noncomputable section

namespace Cert.ReferenceIdeal.RefValue

open Cert.ReferenceIdeal Idealize.ShloMosaic Idealize.ShloMosaic.TcCoe Idealize.SL.Sem Idealize.ShloMosaic.StableHlo

/-- On every device, from any memory with all counters at zero: every fair execution of the reference program ends with
    the output buffer at the specification's output array of the argument buffers' contents at the start, and with each
    argument buffer unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread nD τ).loc main_v23)
          = Cert.Spec.out (m ((c.tc : Thread nD τ).loc main_arg0))
              (Cert.Dequant.w4 (m ((c.tc : Thread nD τ).loc main_arg1)) (m ((c.tc : Thread nD τ).loc main_arg2)) (m ((c.tc : Thread nD τ).loc main_arg3)))
              (m ((c.tc : Thread nD τ).loc main_arg4)) (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run defs _ _).mono
    (fun _ h c => ⟨(h c main_v23).trans ((out_eq (launchContents m c)).trans (refTerm_eq_out _ _ _ _ _)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m ρ)

end Cert.ReferenceIdeal.RefValue

end
-- ==== Proof.lean ====
/-
  A fused linear layer with additively quantized weights and a rank-16 correction, against its plain reference.

  Both programs first dequantize the weights by the same host operations: for each output feature and each group of eight
  input features, one row from each of two codebooks is picked by a table of row numbers, the two rows are added and the
  sum is scaled by the output feature's scale.  The reference then computes, for each input row x[b, s, ·],
      (∑ l, x[b, s, l] · w[o, l] + bias[o]) + 2 · ∑ r, (∑ l, x[b, s, l] · A[r, l]) · B[o, r]
  with three contractions on the host.  The kernel program lays the weights out transposed, precomputes the rank-16
  projection on the host, and lets a tiled region accumulate the long inner product in four blocks of 1024 input features
  into a scratch accumulator, adding the bias and twice the correction when the last block has been added.

  On the extended reals the narrowing of the matrix operands to a shorter float format is the identity, a matrix unit's
  product into a zero accumulator and the host's contraction are the same sum of products, and a sum over 4096 indices
  may be regrouped into four consecutive blocks; the two programs bracket the three summands alike and multiply in the
  same order, so no distributivity or cancellation is needed and the precondition is never opened.  The ideal pass
  rewrote nothing, so the word-level kernel's idealization is its own text read at the ideal values.
-/
import proofs.«149406_j5781025980674_2_alg».proof.Defs
import proofs.«149406_j5781025980674_2_alg».proof.Proof.Gen.Kernel
import proofs.«149406_j5781025980674_2_alg».proof.Proof.Gen.Kernel.Frame
import proofs.«149406_j5781025980674_2_alg».proof.Proof.Gen.KernelIdeal
import proofs.«149406_j5781025980674_2_alg».proof.Proof.Gen.KernelIdeal.Frame
import proofs.«149406_j5781025980674_2_alg».proof.Proof.Gen.ReferenceIdeal
import proofs.«149406_j5781025980674_2_alg».proof.Proof.Gen.Pre_finite_inputs
import proofs.«149406_j5781025980674_2_alg».proof.Proof.KernelRun
import proofs.«149406_j5781025980674_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- Nothing was rewritten on the way to the ideal reading. -/
theorem preserves : Cert.preserves_Kernel_KernelIdeal := trivial

/-- From memories that agree on the seven arguments both programs end with the specification's output array. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
